-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v114) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x4 : Shape := ⟨2, ![256, 4]⟩
abbrev S256x32x2 : Shape := ⟨3, ![256, 32, 2]⟩
abbrev S_ : Shape := ⟨0, ![]⟩

class Facts : Prop where
  bcast_S_S256x4 : S_.BroadcastsInDim S256x4 (![] : Fin 0 → Fin S256x4.rank)
  reducesTo_S256x4_S_d0_1 : S256x4.ReducesTo [0, 1] S_
  h_S_ : 0 < S_.numel
  bcast_S_S256x32x2 : S_.BroadcastsInDim S256x32x2 (![] : Fin 0 → Fin S256x32x2.rank)
  reducesTo_S256x32x2_S_d0_1_2 : S256x32x2.ReducesTo [0, 1, 2] S_

variable [Facts]

def fn {F : FTy → Type} [FloatOps F] (main_arg0 : FVec F S256x4 .f32) (main_arg1 : FVec F S256x32x2 .f32) : IVec S_ 1 :=
  let main_v0 : FVec F S256x4 .f32 := Host.absf main_arg0
  let main_cst : FVec F S_ .f32 := constant S_ .f32 0x7F800000#32
  let main_v1 : FVec F S256x4 .f32 := broadcastInDim S256x4 ![] bcast_S_S256x4 main_cst
  let main_v2 : IVec S256x4 1 := cmpf .olt main_v0 main_v1
  let main_c : IVec S_ 1 := constantI S_ 1 1#1
  let main_v3 : IVec S_ 1 := (fun x v => Host.reduce IntOp.andi x v reducesTo_S256x4_S_d0_1 h_S_) main_v2 main_c
  let main_v4 : FVec F S256x32x2 .f32 := Host.absf main_arg1
  let main_cst_0 : FVec F S_ .f32 := constant S_ .f32 0x7F800000#32
  let main_v5 : FVec F S256x32x2 .f32 := broadcastInDim S256x32x2 ![] bcast_S_S256x32x2 main_cst_0
  let main_v6 : IVec S256x32x2 1 := cmpf .olt main_v4 main_v5
  let main_c_1 : IVec S_ 1 := constantI S_ 1 1#1
  let main_v7 : IVec S_ 1 := (fun x v => Host.reduce IntOp.andi x v reducesTo_S256x32x2_S_d0_1_2 h_S_) main_v6 main_c_1
  let main_v8 : IVec S_ 1 := andi main_v3 main_v7
  main_v8
-- ==== Kernel.lean ====
abbrev S256x4 : Shape := ⟨2, ![256, 4]⟩
abbrev S256x32x2 : Shape := ⟨3, ![256, 32, 2]⟩
abbrev S256x64x64 : Shape := ⟨3, ![256, 64, 64]⟩
abbrev S32x4 : Shape := ⟨2, ![32, 4]⟩
abbrev S32x32x2 : Shape := ⟨3, ![32, 32, 2]⟩
abbrev S32x64x64 : Shape := ⟨3, ![32, 64, 64]⟩
abbrev S1x64 : Shape := ⟨2, ![1, 64]⟩
abbrev S64 : Shape := ⟨1, ![64]⟩
abbrev S32x1 : Shape := ⟨2, ![32, 1]⟩
abbrev S32 : Shape := ⟨1, ![32]⟩
abbrev S32x64 : Shape := ⟨2, ![32, 64]⟩
abbrev S32x64x1 : Shape := ⟨3, ![32, 64, 1]⟩
abbrev S32x1x64 : Shape := ⟨3, ![32, 1, 64]⟩
abbrev S32x1x1 : Shape := ⟨3, ![32, 1, 1]⟩

abbrev nBuf : Space → Nat
  | .hbm => 4
  | .vmem => 8
  | .smem => 0
  | _ => 0

abbrev bufTy : (tb : Table) → Fin (tcTables nBuf tb) → BufTy
  | .hbm, ⟨0, _⟩ => ⟨S256x4, .f32⟩
  | .hbm, ⟨1, _⟩ => ⟨S256x32x2, .f32⟩
  | .hbm, ⟨2, _⟩ => ⟨S256x64x64, .f32⟩
  | .hbm, ⟨3, _⟩ => ⟨S256x64x64, .f32⟩
  | .local _ .vmem, ⟨0, _⟩ => ⟨S32x4, .f32⟩
  | .local _ .vmem, ⟨1, _⟩ => ⟨S32x4, .f32⟩
  | .local _ .vmem, ⟨2, _⟩ => ⟨S32x32x2, .f32⟩
  | .local _ .vmem, ⟨3, _⟩ => ⟨S32x32x2, .f32⟩
  | .local _ .vmem, ⟨4, _⟩ => ⟨S32x64x64, .f32⟩
  | .local _ .vmem, ⟨5, _⟩ => ⟨S32x64x64, .f32⟩
  | .local _ .vmem, ⟨6, _⟩ => ⟨S32x64x64, .f32⟩
  | .local _ .vmem, ⟨7, _⟩ => ⟨S32x64x64, .f32⟩
  | _, _ => ⟨S256x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x32x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  iota_S1x64_d1_w32 : S1x64.Iotas .tc 32 [1]
  shapeCasts_S1x64_S64 : S1x64.ShapeCasts S64
  inb_S32x4_S32x1_0_0 : ∀ a, (![0, 0] : Fin 2 → Nat) a + S32x1.size a ≤ S32x4.size a
  h_S32x1 : 0 < S32x1.numel
  shapeCasts_S32x1_S32 : S32x1.ShapeCasts S32
  inb_S32x4_S32x1_0_1 : ∀ a, (![0, 1] : Fin 2 → Nat) a + S32x1.size a ≤ S32x4.size a
  inb_S32x4_S32x1_0_2 : ∀ a, (![0, 2] : Fin 2 → Nat) a + S32x1.size a ≤ S32x4.size a
  inb_S32x4_S32x1_0_3 : ∀ a, (![0, 3] : Fin 2 → Nat) a + S32x1.size a ≤ S32x4.size a
  shapeCasts_S64_S1x64 : S64.ShapeCasts S1x64
  shapeCasts_S32_S32x1 : S32.ShapeCasts S32x1
  broadcasts_S1x64_S32x64 : S1x64.Broadcasts S32x64
  broadcasts_S32x1_S32x64 : S32x1.Broadcasts S32x64
  natLt_1_32 : 1 < 32
  shapeCasts_S32x64_S32x64x1 : S32x64.ShapeCasts S32x64x1
  shapeCasts_S32x64_S32x1x64 : S32x64.ShapeCasts S32x1x64
  broadcasts_S32x64x1_S32x64x64 : S32x64x1.Broadcasts S32x64x64
  broadcasts_S32x1x64_S32x64x64 : S32x1x64.Broadcasts S32x64x64
  inb_S32x64x64_S32x64x64_0_0_0 : ∀ a, (![0, 0, 0] : Fin 3 → Nat) a + S32x64x64.size a ≤ S32x64x64.size a
  h_S32x64x64 : 0 < S32x64x64.numel
  inb_S32x32x2_S32x1x1_0_0_0 : ∀ a, (![0, 0, 0] : Fin 3 → Nat) a + S32x1x1.size a ≤ S32x32x2.size a
  h_S32x1x1 : 0 < S32x1x1.numel
  shapeCasts_S32x1x1_S32 : S32x1x1.ShapeCasts S32
  inb_S32x32x2_S32x1x1_0_0_1 : ∀ a, (![0, 0, 1] : Fin 3 → Nat) a + S32x1x1.size a ≤ S32x32x2.size a
  shapeCasts_S32_S32x1x1 : S32.ShapeCasts S32x1x1
  broadcasts_S32x1x1_S32x64x64 : S32x1x1.Broadcasts S32x64x64
  inb_S32x32x2_S32x1x1_0_1_0 : ∀ a, (![0, 1, 0] : Fin 3 → Nat) a + S32x1x1.size a ≤ S32x32x2.size a
  inb_S32x32x2_S32x1x1_0_1_1 : ∀ a, (![0, 1, 1] : Fin 3 → Nat) a + S32x1x1.size a ≤ S32x32x2.size a
  inb_S32x32x2_S32x1x1_0_2_0 : ∀ a, (![0, 2, 0] : Fin 3 → Nat) a + S32x1x1.size a ≤ S32x32x2.size a
  inb_S32x32x2_S32x1x1_0_2_1 : ∀ a, (![0, 2, 1] : Fin 3 → Nat) a + S32x1x1.size a ≤ S32x32x2.size a
  inb_S32x32x2_S32x1x1_0_3_0 : ∀ a, (![0, 3, 0] : Fin 3 → Nat) a + S32x1x1.size a ≤ S32x32x2.size a
  inb_S32x32x2_S32x1x1_0_3_1 : ∀ a, (![0, 3, 1] : Fin 3 → Nat) a + S32x1x1.size a ≤ S32x32x2.size a
  inb_S32x32x2_S32x1x1_0_4_0 : ∀ a, (![0, 4, 0] : Fin 3 → Nat) a + S32x1x1.size a ≤ S32x32x2.size a
  inb_S32x32x2_S32x1x1_0_4_1 : ∀ a, (![0, 4, 1] : Fin 3 → Nat) a + S32x1x1.size a ≤ S32x32x2.size a
  inb_S32x32x2_S32x1x1_0_5_0 : ∀ a, (![0, 5, 0] : Fin 3 → Nat) a + S32x1x1.size a ≤ S32x32x2.size a
  inb_S32x32x2_S32x1x1_0_5_1 : ∀ a, (![0, 5, 1] : Fin 3 → Nat) a + S32x1x1.size a ≤ S32x32x2.size a
  inb_S32x32x2_S32x1x1_0_6_0 : ∀ a, (![0, 6, 0] : Fin 3 → Nat) a + S32x1x1.size a ≤ S32x32x2.size a
  inb_S32x32x2_S32x1x1_0_6_1 : ∀ a, (![0, 6, 1] : Fin 3 → Nat) a + S32x1x1.size a ≤ S32x32x2.size a
  inb_S32x32x2_S32x1x1_0_7_0 : ∀ a, (![0, 7, 0] : Fin 3 → Nat) a + S32x1x1.size a ≤ S32x32x2.size a
  inb_S32x32x2_S32x1x1_0_7_1 : ∀ a, (![0, 7, 1] : Fin 3 → Nat) a + S32x1x1.size a ≤ S32x32x2.size a
  inb_S32x32x2_S32x1x1_0_8_0 : ∀ a, (![0, 8, 0] : Fin 3 → Nat) a + S32x1x1.size a ≤ S32x32x2.size a
  inb_S32x32x2_S32x1x1_0_8_1 : ∀ a, (![0, 8, 1] : Fin 3 → Nat) a + S32x1x1.size a ≤ S32x32x2.size a
  inb_S32x32x2_S32x1x1_0_9_0 : ∀ a, (![0, 9, 0] : Fin 3 → Nat) a + S32x1x1.size a ≤ S32x32x2.size a
  inb_S32x32x2_S32x1x1_0_9_1 : ∀ a, (![0, 9, 1] : Fin 3 → Nat) a + S32x1x1.size a ≤ S32x32x2.size a
  inb_S32x32x2_S32x1x1_0_10_0 : ∀ a, (![0, 10, 0] : Fin 3 → Nat) a + S32x1x1.size a ≤ S32x32x2.size a
  inb_S32x32x2_S32x1x1_0_10_1 : ∀ a, (![0, 10, 1] : Fin 3 → Nat) a + S32x1x1.size a ≤ S32x32x2.size a
  inb_S32x32x2_S32x1x1_0_11_0 : ∀ a, (![0, 11, 0] : Fin 3 → Nat) a + S32x1x1.size a ≤ S32x32x2.size a
  inb_S32x32x2_S32x1x1_0_11_1 : ∀ a, (![0, 11, 1] : Fin 3 → Nat) a + S32x1x1.size a ≤ S32x32x2.size a
  inb_S32x32x2_S32x1x1_0_12_0 : ∀ a, (![0, 12, 0] : Fin 3 → Nat) a + S32x1x1.size a ≤ S32x32x2.size a
  inb_S32x32x2_S32x1x1_0_12_1 : ∀ a, (![0, 12, 1] : Fin 3 → Nat) a + S32x1x1.size a ≤ S32x32x2.size a
  inb_S32x32x2_S32x1x1_0_13_0 : ∀ a, (![0, 13, 0] : Fin 3 → Nat) a + S32x1x1.size a ≤ S32x32x2.size a
  inb_S32x32x2_S32x1x1_0_13_1 : ∀ a, (![0, 13, 1] : Fin 3 → Nat) a + S32x1x1.size a ≤ S32x32x2.size a
  inb_S32x32x2_S32x1x1_0_14_0 : ∀ a, (![0, 14, 0] : Fin 3 → Nat) a + S32x1x1.size a ≤ S32x32x2.size a
  inb_S32x32x2_S32x1x1_0_14_1 : ∀ a, (![0, 14, 1] : Fin 3 → Nat) a + S32x1x1.size a ≤ S32x32x2.size a
  inb_S32x32x2_S32x1x1_0_15_0 : ∀ a, (![0, 15, 0] : Fin 3 → Nat) a + S32x1x1.size a ≤ S32x32x2.size a
  inb_S32x32x2_S32x1x1_0_15_1 : ∀ a, (![0, 15, 1] : Fin 3 → Nat) a + S32x1x1.size a ≤ S32x32x2.size a
  inb_S32x32x2_S32x1x1_0_16_0 : ∀ a, (![0, 16, 0] : Fin 3 → Nat) a + S32x1x1.size a ≤ S32x32x2.size a
  inb_S32x32x2_S32x1x1_0_16_1 : ∀ a, (![0, 16, 1] : Fin 3 → Nat) a + S32x1x1.size a ≤ S32x32x2.size a
  inb_S32x32x2_S32x1x1_0_17_0 : ∀ a, (![0, 17, 0] : Fin 3 → Nat) a + S32x1x1.size a ≤ S32x32x2.size a
  inb_S32x32x2_S32x1x1_0_17_1 : ∀ a, (![0, 17, 1] : Fin 3 → Nat) a + S32x1x1.size a ≤ S32x32x2.size a
  inb_S32x32x2_S32x1x1_0_18_0 : ∀ a, (![0, 18, 0] : Fin 3 → Nat) a + S32x1x1.size a ≤ S32x32x2.size a
  inb_S32x32x2_S32x1x1_0_18_1 : ∀ a, (![0, 18, 1] : Fin 3 → Nat) a + S32x1x1.size a ≤ S32x32x2.size a
  inb_S32x32x2_S32x1x1_0_19_0 : ∀ a, (![0, 19, 0] : Fin 3 → Nat) a + S32x1x1.size a ≤ S32x32x2.size a
  inb_S32x32x2_S32x1x1_0_19_1 : ∀ a, (![0, 19, 1] : Fin 3 → Nat) a + S32x1x1.size a ≤ S32x32x2.size a
  inb_S32x32x2_S32x1x1_0_20_0 : ∀ a, (![0, 20, 0] : Fin 3 → Nat) a + S32x1x1.size a ≤ S32x32x2.size a
  inb_S32x32x2_S32x1x1_0_20_1 : ∀ a, (![0, 20, 1] : Fin 3 → Nat) a + S32x1x1.size a ≤ S32x32x2.size a
  inb_S32x32x2_S32x1x1_0_21_0 : ∀ a, (![0, 21, 0] : Fin 3 → Nat) a + S32x1x1.size a ≤ S32x32x2.size a
  inb_S32x32x2_S32x1x1_0_21_1 : ∀ a, (![0, 21, 1] : Fin 3 → Nat) a + S32x1x1.size a ≤ S32x32x2.size a
  inb_S32x32x2_S32x1x1_0_22_0 : ∀ a, (![0, 22, 0] : Fin 3 → Nat) a + S32x1x1.size a ≤ S32x32x2.size a
  inb_S32x32x2_S32x1x1_0_22_1 : ∀ a, (![0, 22, 1] : Fin 3 → Nat) a + S32x1x1.size a ≤ S32x32x2.size a
  inb_S32x32x2_S32x1x1_0_23_0 : ∀ a, (![0, 23, 0] : Fin 3 → Nat) a + S32x1x1.size a ≤ S32x32x2.size a
  inb_S32x32x2_S32x1x1_0_23_1 : ∀ a, (![0, 23, 1] : Fin 3 → Nat) a + S32x1x1.size a ≤ S32x32x2.size a
  inb_S32x32x2_S32x1x1_0_24_0 : ∀ a, (![0, 24, 0] : Fin 3 → Nat) a + S32x1x1.size a ≤ S32x32x2.size a
  inb_S32x32x2_S32x1x1_0_24_1 : ∀ a, (![0, 24, 1] : Fin 3 → Nat) a + S32x1x1.size a ≤ S32x32x2.size a
  inb_S32x32x2_S32x1x1_0_25_0 : ∀ a, (![0, 25, 0] : Fin 3 → Nat) a + S32x1x1.size a ≤ S32x32x2.size a
  inb_S32x32x2_S32x1x1_0_25_1 : ∀ a, (![0, 25, 1] : Fin 3 → Nat) a + S32x1x1.size a ≤ S32x32x2.size a
  inb_S32x32x2_S32x1x1_0_26_0 : ∀ a, (![0, 26, 0] : Fin 3 → Nat) a + S32x1x1.size a ≤ S32x32x2.size a
  inb_S32x32x2_S32x1x1_0_26_1 : ∀ a, (![0, 26, 1] : Fin 3 → Nat) a + S32x1x1.size a ≤ S32x32x2.size a
  inb_S32x32x2_S32x1x1_0_27_0 : ∀ a, (![0, 27, 0] : Fin 3 → Nat) a + S32x1x1.size a ≤ S32x32x2.size a
  inb_S32x32x2_S32x1x1_0_27_1 : ∀ a, (![0, 27, 1] : Fin 3 → Nat) a + S32x1x1.size a ≤ S32x32x2.size a
  inb_S32x32x2_S32x1x1_0_28_0 : ∀ a, (![0, 28, 0] : Fin 3 → Nat) a + S32x1x1.size a ≤ S32x32x2.size a
  inb_S32x32x2_S32x1x1_0_28_1 : ∀ a, (![0, 28, 1] : Fin 3 → Nat) a + S32x1x1.size a ≤ S32x32x2.size a
  inb_S32x32x2_S32x1x1_0_29_0 : ∀ a, (![0, 29, 0] : Fin 3 → Nat) a + S32x1x1.size a ≤ S32x32x2.size a
  inb_S32x32x2_S32x1x1_0_29_1 : ∀ a, (![0, 29, 1] : Fin 3 → Nat) a + S32x1x1.size a ≤ S32x32x2.size a
  inb_S32x32x2_S32x1x1_0_30_0 : ∀ a, (![0, 30, 0] : Fin 3 → Nat) a + S32x1x1.size a ≤ S32x32x2.size a
  inb_S32x32x2_S32x1x1_0_30_1 : ∀ a, (![0, 30, 1] : Fin 3 → Nat) a + S32x1x1.size a ≤ S32x32x2.size a
  inb_S32x32x2_S32x1x1_0_31_0 : ∀ a, (![0, 31, 0] : Fin 3 → Nat) a + S32x1x1.size a ≤ S32x32x2.size a
  inb_S32x32x2_S32x1x1_0_31_1 : ∀ a, (![0, 31, 1] : Fin 3 → Nat) a + S32x1x1.size a ≤ S32x32x2.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x4.size a ≤ S256x4.size a
  hwx0_0 : ∀ i : grid0.Coords, EltTy.bits .f32 = 32 ∨ (Rect.block (s := S256x4) S32x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x32x2.size a ≤ S256x32x2.size a
  hwx0_1 : ∀ i : grid0.Coords, EltTy.bits .f32 = 32 ∨ (Rect.block (s := S256x32x2) S32x32x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x64x64.size a ≤ S256x64x64.size a
  hwx0_2 : ∀ i : grid0.Coords, EltTy.bits .f32 = 32 ∨ (Rect.block (s := S256x64x64) S32x64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x64x64.size a ≤ S256x64x64.size a
  hwx0_3 : ∀ i : grid0.Coords, EltTy.bits .f32 = 32 ∨ (Rect.block (s := S256x64x64) S32x64x64.size (cc0_transform_3 i) (hinb0_3 i)).WholeWords (EltTy.packing .f32)

variable [Facts₀]

abbrev win0_0 : Pipeline.Window sig grid0 :=
  Pipeline.Window.ofSpec (Memref.whole main_arg0) S32x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x32x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S32x64x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S32x64x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x4 : Shape := ⟨2, ![256, 4]⟩
abbrev S256x32x2 : Shape := ⟨3, ![256, 32, 2]⟩
abbrev S64 : Shape := ⟨1, ![64]⟩
abbrev S256x1 : Shape := ⟨2, ![256, 1]⟩
abbrev S256 : Shape := ⟨1, ![256]⟩
abbrev S_ : Shape := ⟨0, ![]⟩
abbrev S1x64 : Shape := ⟨2, ![1, 64]⟩
abbrev S256x64 : Shape := ⟨2, ![256, 64]⟩
abbrev S256x64x1 : Shape := ⟨3, ![256, 64, 1]⟩
abbrev S256x1x64 : Shape := ⟨3, ![256, 1, 64]⟩
abbrev S256x64x64 : Shape := ⟨3, ![256, 64, 64]⟩
abbrev S256x32x1 : Shape := ⟨3, ![256, 32, 1]⟩
abbrev S256x32 : Shape := ⟨2, ![256, 32]⟩
abbrev S1x1x1x64 : Shape := ⟨4, ![1, 1, 1, 64]⟩
abbrev S256x32x1x1 : Shape := ⟨4, ![256, 32, 1, 1]⟩
abbrev S256x32x1x64 : Shape := ⟨4, ![256, 32, 1, 64]⟩
abbrev S1x1x64x1 : Shape := ⟨4, ![1, 1, 64, 1]⟩
abbrev S256x32x64x1 : Shape := ⟨4, ![256, 32, 64, 1]⟩
abbrev S256x32x64x64 : Shape := ⟨4, ![256, 32, 64, 64]⟩

abbrev nBuf : Space → Nat
  | .hbm => 139
  | .vmem => 0
  | .smem => 0
  | _ => 0

abbrev hbmTy0_0 (i : Nat) : BufTy := match i % 128 with
  | 0 => ⟨S256x4, .f32⟩
  | 1 => ⟨S256x32x2, .f32⟩
  | 2 => ⟨S64, .i32⟩
  | 3 => ⟨S256x1, .f32⟩
  | 4 => ⟨S256, .f32⟩
  | 5 => ⟨S256x1, .f32⟩
  | 6 => ⟨S256, .f32⟩
  | 7 => ⟨S256x1, .f32⟩
  | 8 => ⟨S256, .f32⟩
  | 9 => ⟨S256x1, .f32⟩
  | 10 => ⟨S256, .f32⟩
  | 11 => ⟨S256, .f32⟩
  | 12 => ⟨S256, .f32⟩
  | 13 => ⟨S256, .f32⟩
  | 14 => ⟨S256, .f32⟩
  | 15 => ⟨S_, .f32⟩
  | 16 => ⟨S256, .f32⟩
  | 17 => ⟨S256, .f32⟩
  | 18 => ⟨S256, .f32⟩
  | 19 => ⟨S256, .i32⟩
  | 20 => ⟨S_, .i32⟩
  | 21 => ⟨S256, .i32⟩
  | 22 => ⟨S256, .i32⟩
  | 23 => ⟨S_, .f32⟩
  | 24 => ⟨S256, .f32⟩
  | 25 => ⟨S256, .f32⟩
  | 26 => ⟨S256, .f32⟩
  | 27 => ⟨S256, .i32⟩
  | 28 => ⟨S_, .i32⟩
  | 29 => ⟨S256, .i32⟩
  | 30 => ⟨S256, .i32⟩
  | 31 => ⟨S_, .f32⟩
  | 32 => ⟨S256, .f32⟩
  | 33 => ⟨S256, .f32⟩
  | 34 => ⟨S256, .f32⟩
  | 35 => ⟨S256, .i32⟩
  | 36 => ⟨S_, .i32⟩
  | 37 => ⟨S256, .i32⟩
  | 38 => ⟨S256, .i32⟩
  | 39 => ⟨S_, .i32⟩
  | 40 => ⟨S256, .i32⟩
  | 41 => ⟨S256, .i32⟩
  | 42 => ⟨S_, .f32⟩
  | 43 => ⟨S256, .f32⟩
  | 44 => ⟨S256, .f32⟩
  | 45 => ⟨S256, .f32⟩
  | 46 => ⟨S256, .i32⟩
  | 47 => ⟨S_, .i32⟩
  | 48 => ⟨S256, .i32⟩
  | 49 => ⟨S256, .i32⟩
  | 50 => ⟨S_, .i32⟩
  | 51 => ⟨S256, .i32⟩
  | 52 => ⟨S256, .i32⟩
  | 53 => ⟨S1x64, .i32⟩
  | 54 => ⟨S256x1, .i32⟩
  | 55 => ⟨S256x64, .i32⟩
  | 56 => ⟨S256x64, .i32⟩
  | 57 => ⟨S256x64, .i1⟩
  | 58 => ⟨S1x64, .i32⟩
  | 59 => ⟨S256x1, .i32⟩
  | 60 => ⟨S256x64, .i32⟩
  | 61 => ⟨S256x64, .i32⟩
  | 62 => ⟨S256x64, .i1⟩
  | 63 => ⟨S256x64, .i1⟩
  | 64 => ⟨S1x64, .i32⟩
  | 65 => ⟨S256x1, .i32⟩
  | 66 => ⟨S256x64, .i32⟩
  | 67 => ⟨S256x64, .i32⟩
  | 68 => ⟨S256x64, .i1⟩
  | 69 => ⟨S1x64, .i32⟩
  | 70 => ⟨S256x1, .i32⟩
  | 71 => ⟨S256x64, .i32⟩
  | 72 => ⟨S256x64, .i32⟩
  | 73 => ⟨S256x64, .i1⟩
  | 74 => ⟨S256x64, .i1⟩
  | 75 => ⟨S256x64x1, .i1⟩
  | 76 => ⟨S256x1x64, .i1⟩
  | 77 => ⟨S256x64x64, .i1⟩
  | 78 => ⟨S256x64x64, .i1⟩
  | 79 => ⟨S256x64x64, .i1⟩
  | 80 => ⟨S256x64x64, .f32⟩
  | 81 => ⟨S256x32x1, .f32⟩
  | 82 => ⟨S256x32, .f32⟩
  | 83 => ⟨S_, .f32⟩
  | 84 => ⟨S256x32, .f32⟩
  | 85 => ⟨S256x32, .f32⟩
  | 86 => ⟨S256x32, .f32⟩
  | 87 => ⟨S256x32, .i32⟩
  | 88 => ⟨S256x32x1, .f32⟩
  | 89 => ⟨S256x32, .f32⟩
  | 90 => ⟨S_, .f32⟩
  | 91 => ⟨S256x32, .f32⟩
  | 92 => ⟨S256x32, .f32⟩
  | 93 => ⟨S256x32, .f32⟩
  | 94 => ⟨S256x32, .i32⟩
  | 95 => ⟨S_, .i32⟩
  | 96 => ⟨S256x32, .i32⟩
  | 97 => ⟨S256x32, .i1⟩
  | 98 => ⟨S_, .i32⟩
  | 99 => ⟨S256x32, .i32⟩
  | 100 => ⟨S256x32, .i1⟩
  | 101 => ⟨S256x32, .i1⟩
  | 102 => ⟨S_, .i32⟩
  | 103 => ⟨S256x32, .i32⟩
  | 104 => ⟨S256x32, .i1⟩
  | 105 => ⟨S256x32, .i1⟩
  | 106 => ⟨S_, .i32⟩
  | 107 => ⟨S256x32, .i32⟩
  | 108 => ⟨S256x32, .i1⟩
  | 109 => ⟨S256x32, .i1⟩
  | 110 => ⟨S1x1x1x64, .i32⟩
  | 111 => ⟨S256x32x1x1, .i32⟩
  | 112 => ⟨S256x32x1x64, .i32⟩
  | 113 => ⟨S256x32x1x64, .i32⟩
  | 114 => ⟨S256x32x1x64, .i32⟩
  | 115 => ⟨S1x1x64x1, .i32⟩
  | 116 => ⟨S256x32x1x1, .i32⟩
  | 117 => ⟨S256x32x64x1, .i32⟩
  | 118 => ⟨S256x32x64x1, .i32⟩
  | 119 => ⟨S256x32x64x1, .i32⟩
  | 120 => ⟨S256x32x64x1, .i32⟩
  | 121 => ⟨S256x32x1x64, .i32⟩
  | 122 => ⟨S256x32x64x64, .i32⟩
  | 123 => ⟨S256x32x64x64, .i32⟩
  | 124 => ⟨S256x32x64x64, .i32⟩
  | 125 => ⟨S256x32x64x64, .f32⟩
  | 126 => ⟨S256x32x64x64, .f32⟩
  | 127 => ⟨S_, .f32⟩
  | _ => ⟨S256x4, .f32⟩

abbrev hbmTy0_1 (i : Nat) : BufTy := match i % 128 with
  | 0 => ⟨S256x32x64x64, .f32⟩
  | 1 => ⟨S256x32x64x64, .f32⟩
  | 2 => ⟨S256x32x64x64, .f32⟩
  | 3 => ⟨S256x32x1x1, .i1⟩
  | 4 => ⟨S_, .f32⟩
  | 5 => ⟨S_, .f32⟩
  | 6 => ⟨S256x32x64x64, .i1⟩
  | 7 => ⟨S256x32x64x64, .f32⟩
  | 8 => ⟨S256x32x64x64, .f32⟩
  | 9 => ⟨S_, .f32⟩
  | 10 => ⟨S256x64x64, .f32⟩
  | _ => ⟨S256x4, .f32⟩

abbrev hbmTy (i : Nat) : BufTy := match i / 128 with
  | 0 => hbmTy0_0 i
  | 1 => hbmTy0_1 i
  | _ => ⟨S256x4, .f32⟩

abbrev bufTy : (tb : Table) → Fin (tcTables nBuf tb) → BufTy
  | .hbm, ⟨i, _⟩ => hbmTy i
  | _, _ => ⟨S256x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_c : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c_1 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_c_3 : Ref sig .tc := ⟨.hbm, 36, rfl⟩
abbrev main_v29 : Ref sig .tc := ⟨.hbm, 37, rfl⟩
abbrev main_v30 : Ref sig .tc := ⟨.hbm, 38, rfl⟩
abbrev main_c_4 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_c_6 : Ref sig .tc := ⟨.hbm, 47, rfl⟩
abbrev main_v37 : Ref sig .tc := ⟨.hbm, 48, rfl⟩
abbrev main_v38 : Ref sig .tc := ⟨.hbm, 49, rfl⟩
abbrev main_c_7 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_cst_8 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_cst_9 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_c_10 : Ref sig .tc := ⟨.hbm, 95, rfl⟩
abbrev main_v81 : Ref sig .tc := ⟨.hbm, 96, rfl⟩
abbrev main_v82 : Ref sig .tc := ⟨.hbm, 97, rfl⟩
abbrev main_c_11 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_c_12 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_c_13 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_cst_14 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_cst_15 : Ref sig .tc := ⟨.hbm, 132, rfl⟩
abbrev main_call0_v0 : Ref sig .tc := ⟨.hbm, 133, rfl⟩
abbrev main_call0_v1 : Ref sig .tc := ⟨.hbm, 134, rfl⟩
abbrev main_call0_v2 : Ref sig .tc := ⟨.hbm, 135, rfl⟩
abbrev main_v113 : Ref sig .tc := ⟨.hbm, 136, rfl⟩
abbrev main_cst_16 : Ref sig .tc := ⟨.hbm, 137, rfl⟩
abbrev main_v114 : Ref sig .tc := ⟨.hbm, 138, rfl⟩

abbrev nD : Nat := 1
abbrev τ : Topo := Topo.v7x

variable {F : FTy → Type} [FloatOps F]

class Facts₀ : Prop where
  slices_S256x4_S256x1_0_0 : S256x4.Slices ![0, 0] S256x1
  shapeCasts_S256x1_S256 : S256x1.ShapeCasts S256
  slices_S256x4_S256x1_0_1 : S256x4.Slices ![0, 1] S256x1
  slices_S256x4_S256x1_0_2 : S256x4.Slices ![0, 2] S256x1
  slices_S256x4_S256x1_0_3 : S256x4.Slices ![0, 3] S256x1
  bcast_S_S256 : S_.BroadcastsInDim S256 (![] : Fin 0 → Fin S256.rank)
  bcast_S64_S1x64_1 : S64.BroadcastsInDim S1x64 (![1] : Fin 1 → Fin S1x64.rank)
  bcast_S256_S256x1_0 : S256.BroadcastsInDim S256x1 (![0] : Fin 1 → Fin S256x1.rank)
  bcast_S1x64_S256x64_0_1 : S1x64.BroadcastsInDim S256x64 (![0, 1] : Fin 2 → Fin S256x64.rank)
  bcast_S256x1_S256x64_0_1 : S256x1.BroadcastsInDim S256x64 (![0, 1] : Fin 2 → Fin S256x64.rank)
  bcast_S256x64_S256x64x1_0_1 : S256x64.BroadcastsInDim S256x64x1 (![0, 1] : Fin 2 → Fin S256x64x1.rank)
  bcast_S256x64_S256x1x64_0_2 : S256x64.BroadcastsInDim S256x1x64 (![0, 2] : Fin 2 → Fin S256x1x64.rank)
  bcast_S256x64x1_S256x64x64_0_1_2 : S256x64x1.BroadcastsInDim S256x64x64 (![0, 1, 2] : Fin 3 → Fin S256x64x64.rank)
  bcast_S256x1x64_S256x64x64_0_1_2 : S256x1x64.BroadcastsInDim S256x64x64 (![0, 1, 2] : Fin 3 → Fin S256x64x64.rank)
  slices_S256x32x2_S256x32x1_0_0_0 : S256x32x2.Slices ![0, 0, 0] S256x32x1
  shapeCasts_S256x32x1_S256x32 : S256x32x1.ShapeCasts S256x32
  bcast_S_S256x32 : S_.BroadcastsInDim S256x32 (![] : Fin 0 → Fin S256x32.rank)
  slices_S256x32x2_S256x32x1_0_0_1 : S256x32x2.Slices ![0, 0, 1] S256x32x1
  bcast_S64_S1x1x1x64_3 : S64.BroadcastsInDim S1x1x1x64 (![3] : Fin 1 → Fin S1x1x1x64.rank)
  bcast_S256x32_S256x32x1x1_0_1 : S256x32.BroadcastsInDim S256x32x1x1 (![0, 1] : Fin 2 → Fin S256x32x1x1.rank)
  bcast_S1x1x1x64_S256x32x1x64_0_1_2_3 : S1x1x1x64.BroadcastsInDim S256x32x1x64 (![0, 1, 2, 3] : Fin 4 → Fin S256x32x1x64.rank)
  bcast_S256x32x1x1_S256x32x1x64_0_1_2_3 : S256x32x1x1.BroadcastsInDim S256x32x1x64 (![0, 1, 2, 3] : Fin 4 → Fin S256x32x1x64.rank)
  bcast_S64_S1x1x64x1_2 : S64.BroadcastsInDim S1x1x64x1 (![2] : Fin 1 → Fin S1x1x64x1.rank)
  bcast_S1x1x64x1_S256x32x64x1_0_1_2_3 : S1x1x64x1.BroadcastsInDim S256x32x64x1 (![0, 1, 2, 3] : Fin 4 → Fin S256x32x64x1.rank)
  bcast_S256x32x1x1_S256x32x64x1_0_1_2_3 : S256x32x1x1.BroadcastsInDim S256x32x64x1 (![0, 1, 2, 3] : Fin 4 → Fin S256x32x64x1.rank)
  bcast_S256x32x64x1_S256x32x64x64_0_1_2_3 : S256x32x64x1.BroadcastsInDim S256x32x64x64 (![0, 1, 2, 3] : Fin 4 → Fin S256x32x64x64.rank)
  bcast_S256x32x1x64_S256x32x64x64_0_1_2_3 : S256x32x1x64.BroadcastsInDim S256x32x64x64 (![0, 1, 2, 3] : Fin 4 → Fin S256x32x64x64.rank)
  bcast_S_S256x32x64x64 : S_.BroadcastsInDim S256x32x64x64 (![] : Fin 0 → Fin S256x32x64x64.rank)
  bcast_S256x32x1x1_S256x32x64x64_0_1_2_3 : S256x32x1x1.BroadcastsInDim S256x32x64x64 (![0, 1, 2, 3] : Fin 4 → Fin S256x32x64x64.rank)
  reducesTo_S256x32x64x64_S256x64x64_d1 : S256x32x64x64.ReducesTo [1] S256x64x64
  h_S_ : 0 < S_.numel

variable [Facts₀]

class Facts : Prop extends Facts₀ where

variable [Facts]
-- ==== Proof.MaskSpec.lean ====
/-
  What the two masks are, one grid cell at a time, and the laws that join the two ways of computing them.

  A pixel coordinate `x` falls in grid cell `⌊x / 16⌋`, read as a 32-bit word (`cell`).

  BOX MASK. A box with corners (x0, y0), (x1, y1) covers the cells from `lo` to `hi` (exclusive) on each axis, both
  clamped to the 64 × 64 grid; entry (i, j) of the mask is 1 when row i is within the y-range and column j within the
  x-range, else 0. One side multiplies the two indicator bits as numbers, the other takes their conjunction and then
  reads it as a number: the same, since both bits are 0 or 1 (`bit_mul`).

  POINT MASK. A point in cell (px, py) contributes to entry (i, j) the gaussian exp(-((i - py)² + (j - px)²) / 882)
  when the cell lies inside the grid (`inside`), and 0 otherwise; the mask is the largest contribution over the 32
  points. One side squares the differences as real numbers and multiplies the gaussian by the indicator
  (`gaussMul`); the other squares and adds them as 32-bit words before reading the sum as a number, and selects
  between the gaussian and 0 (`gaussSel`). They agree (`gaussMul_eq_gaussSel`): inside the grid both differences lie
  strictly between -64 and 64, so the words never wrap; outside, a product with 0 is 0. Every contribution is at
  least 0 (`gaussSel_nonneg`), so a running maximum started from 0 is the plain maximum (`foldl_max_zero`).
-/
import Idealize.ShloMosaic.PureOps.Ideal
import Idealize.ShloMosaic.PureOps.Ideal.Laws
import Idealize.ShloMosaic.Lib.Affine
import Idealize.ShloMosaic.Lib.ValueIdx

noncomputable section

namespace Cert.MaskSpec

open Idealize.ShloMosaic

/-- The grid cell of a pixel coordinate: `⌊x / 16⌋` as a 32-bit word. -/
def cell (x : EReal) : BitVec 32 :=
  Ideal.fptosi 32 (Ideal.liftRound Int.floor (Ideal.div x (Ideal.ofBits .f32 0x41800000#32)))

/-- Coordinate `n` of the 64-cell grid as a 32-bit word. -/
abbrev gridWord (n : Fin 64) : BitVec 32 := BitVec.ofNat 32 n.val

/-- A 32-bit word read as a signed number. -/
abbrev num (b : BitVec 32) : EReal := ((b.toInt : ℝ) : EReal)

/-! ## The box mask -/

/-- First covered cell on one axis: the smaller corner's cell, not below 0. -/
def lo (a b : EReal) : BitVec 32 := IntOp.maxsi (cell (min a b)) 0#32
/-- One past the last covered cell on one axis: the larger corner's cell plus one, not above 64. -/
def hi (a b : EReal) : BitVec 32 := IntOp.minsi (IntOp.addi (cell (max a b)) 1#32) 64#32
/-- Is grid coordinate `g` in the range `[l, h)`, comparing signed? -/
def within (g l h : BitVec 32) : BitVec 1 := IntOp.andi (IntOp.cmpi .sge g l) (IntOp.cmpi .slt g h)

/-- The row indicator of a box at grid row `i`. -/
def rowBit (y0 y1 : EReal) (i : Fin 64) : BitVec 1 := within (gridWord i) (lo y0 y1) (hi y0 y1)
/-- The column indicator of a box at grid column `j`. -/
def colBit (x0 x1 : EReal) (j : Fin 64) : BitVec 1 := within (gridWord j) (lo x0 x1) (hi x0 x1)

/-- Entry (i, j) of the box mask: the conjunction of the row and column indicators, as a number. -/
def boxEntry (x0 y0 x1 y1 : EReal) (i j : Fin 64) : EReal :=
  (((rowBit y0 y1 i &&& colBit x0 x1 j).toNat : ℝ) : EReal)

theorem bit_cases (a : BitVec 1) : a = 0#1 ∨ a = 1#1 := by revert a; decide

/-- Two bits multiplied as numbers are their conjunction as a number. -/
theorem bit_mul (a b : BitVec 1) :
    num (a.setWidth 32) * num (b.setWidth 32) = (((a &&& b).toNat : ℝ) : EReal) := by
  rcases bit_cases a with rfl | rfl <;> rcases bit_cases b with rfl | rfl <;>
    simp [num, show (BitVec.setWidth 32 0#1).toInt = 0 from by decide, show (BitVec.setWidth 32 1#1).toInt = 1 from by decide,
      show (0#1 &&& 0#1 : BitVec 1).toNat = 0 from by decide, show (0#1 &&& 1#1 : BitVec 1).toNat = 0 from by decide,
      show (1#1 &&& 0#1 : BitVec 1).toNat = 0 from by decide, show (1#1 &&& 1#1 : BitVec 1).toNat = 1 from by decide]

/-! ## The point mask -/

/-- Does the cell (px, py) lie inside the 64 × 64 grid? -/
def inside (px py : BitVec 32) : BitVec 1 :=
  IntOp.andi (IntOp.andi (IntOp.andi (IntOp.cmpi .sge px 0#32) (IntOp.cmpi .sge py 0#32)) (IntOp.cmpi .slt px 64#32))
    (IntOp.cmpi .slt py 64#32)

/-- The gaussian of a squared distance `d`: exp(-d / 882), written as the quotient of `0 - d`. -/
def gaussOfSub (d : EReal) : EReal := Ideal.exp (Ideal.div (Ideal.ofBits .f32 0x00000000#32 - d) (Ideal.ofBits .f32 0x445C8000#32))
/-- The same gaussian written as the quotient of `-d`. -/
def gaussOfNeg (d : EReal) : EReal := Ideal.exp (Ideal.div (-d) (Ideal.ofBits .f32 0x445C8000#32))

/-- A point's contribution at (i, j): differences squared as numbers, the gaussian times the indicator. -/
def gaussMul (px py : BitVec 32) (i j : Fin 64) : EReal :=
  gaussOfSub (num (gridWord i - py) * num (gridWord i - py) + num (gridWord j - px) * num (gridWord j - px))
    * num ((inside px py).setWidth 32)

/-- A point's contribution at (i, j): differences squared and added as words, the gaussian or 0 by the indicator. -/
def gaussSel (px py : BitVec 32) (i j : Fin 64) : EReal :=
  Scalar.select (inside px py)
    (gaussOfNeg (num ((gridWord i - py) * (gridWord i - py) + (gridWord j - px) * (gridWord j - px))))
    (Ideal.ofBits .f32 0x00000000#32)

theorem inside_iff (px py : BitVec 32) :
    inside px py = 1#1 ↔ (0 ≤ px.toInt ∧ 0 ≤ py.toInt) ∧ px.toInt < 64 ∧ py.toInt < 64 := by
  unfold inside
  rw [IntOp.andi_eq_one, IntOp.andi_eq_one, IntOp.andi_eq_one, IntOp.cmpi_sge, IntOp.cmpi_sge, IntOp.cmpi_slt, IntOp.cmpi_slt]
  simp only [show (0#32 : BitVec 32).toInt = 0 from by decide, show (64#32 : BitVec 32).toInt = 64 from by decide]
  tauto

/-- A grid coordinate minus a cell inside the grid does not wrap. -/
theorem toInt_grid_sub (n : Fin 64) (p : BitVec 32) (h0 : 0 ≤ p.toInt) (h1 : p.toInt < 64) :
    (gridWord n - p).toInt = (n.val : ℤ) - p.toInt := by
  have hn : (gridWord n).toInt = (n.val : ℤ) := by
    have := n.isLt
    rw [BitVec.toInt_ofNat']
    exact Int.bmod_eq_of_le (by omega) (by omega)
  rw [BitVec.toInt_sub, hn]
  have := n.isLt
  exact Int.bmod_eq_of_le (by omega) (by omega)

/-- The sum of two squares of numbers strictly between -64 and 64, computed on 32-bit words, does not wrap. -/
theorem toInt_sq_add_sq (a b : BitVec 32) (ha : -64 < a.toInt ∧ a.toInt < 64) (hb : -64 < b.toInt ∧ b.toInt < 64) :
    (a * a + b * b).toInt = a.toInt * a.toInt + b.toInt * b.toInt := by
  have sq : ∀ z : ℤ, -64 < z → z < 64 → 0 ≤ z * z ∧ z * z < 4096 := by
    intro z h1 h2
    constructor
    · exact mul_self_nonneg z
    · nlinarith
  obtain ⟨a0, a1⟩ := sq _ ha.1 ha.2
  obtain ⟨b0, b1⟩ := sq _ hb.1 hb.2
  have ea : (a * a).toInt = a.toInt * a.toInt := by
    rw [BitVec.toInt_mul]; exact Int.bmod_eq_of_le (by omega) (by omega)
  have eb : (b * b).toInt = b.toInt * b.toInt := by
    rw [BitVec.toInt_mul]; exact Int.bmod_eq_of_le (by omega) (by omega)
  rw [BitVec.toInt_add, ea, eb]
  exact Int.bmod_eq_of_le (by omega) (by omega)

/-- The two ways of computing a point's contribution agree. -/
theorem gaussMul_eq_gaussSel (px py : BitVec 32) (i j : Fin 64) : gaussMul px py i j = gaussSel px py i j := by
  unfold gaussMul gaussSel
  by_cases h : inside px py = 1#1
  · obtain ⟨⟨hx0, hy0⟩, hx1, hy1⟩ := (inside_iff px py).1 h
    rw [h, ValueIdx.select_one]
    have e1 : num (BitVec.setWidth 32 1#1) = 1 := by
      simp [num, show (BitVec.setWidth 32 1#1).toInt = 1 from by decide]
    rw [e1, mul_one]
    have di := toInt_grid_sub i py hy0 hy1
    have dj := toInt_grid_sub j px hx0 hx1
    have hi := i.isLt
    have hj := j.isLt
    have hs := toInt_sq_add_sq (gridWord i - py) (gridWord j - px) (by rw [di]; omega) (by rw [dj]; omega)
    unfold gaussOfSub gaussOfNeg
    congr 2
    rw [Ideal.ofBits_zero_f32, zero_sub]
    congr 1
    simp only [num]
    rw [hs, ← EReal.coe_mul, ← EReal.coe_mul, ← EReal.coe_add]
    push_cast
    rfl
  · have h0 := ValueIdx.eq_zero_of_ne_one h
    rw [h0, ValueIdx.select_zero]
    have e0 : num (BitVec.setWidth 32 0#1) = 0 := by
      simp [num, show (BitVec.setWidth 32 0#1).toInt = 0 from by decide]
    rw [e0, mul_zero, Ideal.ofBits_zero_f32]

theorem exp_nonneg (x : EReal) : 0 ≤ Ideal.exp x := by
  induction x using EReal.rec with
  | bot => simp
  | top => simp
  | coe r => rw [Ideal.exp_coe]; exact EReal.coe_nonneg.2 (Real.exp_pos r).le

/-- Every contribution is at least 0. -/
theorem gaussSel_nonneg (px py : BitVec 32) (i j : Fin 64) : 0 ≤ gaussSel px py i j := by
  unfold gaussSel Scalar.select
  split
  · exact exp_nonneg _
  · rw [Ideal.ofBits_zero_f32]

/-! ## Running maxima -/

/-- A running maximum over a list, started from `c`, is `c` joined with the largest term. -/
theorem foldl_max {ι : Type} [DecidableEq ι] (f : ι → EReal) (l : List ι) (c : EReal) :
    l.foldl (fun a p => max a (f p)) c = max c (l.toFinset.sup f) := by
  induction l generalizing c with
  | nil => simp
  | cons x l ih =>
    rw [List.foldl_cons, ih, List.toFinset_cons, Finset.sup_insert, max_assoc]

/-- Started from 0 over terms that are all at least 0, with at least one term, it is the largest term. -/
theorem foldl_max_zero {ι : Type} [DecidableEq ι] (f : ι → EReal) (l : List ι) (p0 : ι) (hp : p0 ∈ l)
    (hf : ∀ p, 0 ≤ f p) : l.foldl (fun a p => max a (f p)) 0 = l.toFinset.sup f := by
  rw [foldl_max]
  exact max_eq_right ((hf p0).trans (Finset.le_sup (List.mem_toFinset.2 hp)))

/-- The largest term over all of a finite index type, as a fold of `max` from the bottom element. -/
theorem fold_max_bot {ι : Type} [Fintype ι] (f : ι → EReal) :
    (Finset.univ : Finset ι).fold max ⊥ f = Finset.univ.sup f := rfl

/-- The 32 points, in order. -/
def points : List (Fin 32) :=
  [0, 1, 2, 3, 4, 5, 6, 7, 8, 9, 10, 11, 12, 13, 14, 15, 16, 17, 18, 19, 20, 21, 22, 23, 24, 25, 26, 27, 28, 29, 30, 31]

theorem points_toFinset : points.toFinset = Finset.univ := by decide

/-- Entry (i, j) of the point mask from the 32 points' cells: the largest contribution. -/
def pointEntry (cx cy : Fin 32 → BitVec 32) (i j : Fin 64) : EReal :=
  Finset.univ.sup fun p : Fin 32 => gaussSel (cx p) (cy p) i j

/-- The running maximum from 0 over the 32 points, contributions computed the multiplying way, is the point mask's entry. -/
theorem foldl_gaussMul (cx cy : Fin 32 → BitVec 32) (i j : Fin 64) :
    points.foldl (fun a p => max a (gaussMul (cx p) (cy p) i j)) 0 = pointEntry cx cy i j := by
  simp only [gaussMul_eq_gaussSel]
  rw [foldl_max_zero _ points 0 (by decide) (fun p => gaussSel_nonneg _ _ i j), points_toFinset]
  rfl

end Cert.MaskSpec

end
-- ==== Proof.LibUnitAxes.lean ====
/-
  Unit axes at the end or in the middle of a rank-2 or rank-3 shape, read at an index given by coordinates, and a load
  through a unit-stride rectangle read at a position. Each statement names the operand's index outright, so a proof
  that meets one of these layout steps rewrites it away without opening the step's definition.

  Shape casts: [a] -> [a,1], [a,1] -> [a], [a] -> [a,1,1], [a,1,1] -> [a], [a,b] -> [a,b,1], [a,c] -> [a,1,c].
  Broadcasts: [a,1] -> [a,b], [a,b,1] -> [a,b,c], [a,1,c] -> [a,b,c], [a,1,1] -> [a,b,c].
  A cast keeps the row-major position, and a unit axis contributes nothing to it; a broadcast reads coordinate 0 on
  each of the operand's unit axes and the result's own coordinate elsewhere.
-/
import Idealize.ShloMosaic.Lib.Pipeline.Value
import Idealize.ShloMosaic.Lib.ValueIdx

namespace Idealize.ShloMosaic.UnitAxes

open Idealize.ShloMosaic Idealize.ShloMosaic.ValueIdx

variable {α : Type}

/-- A vector `[a]` cast to a column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` cast to a vector `[a]` reads, at `p`, the column at `(p, 0)`. -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- A vector `[a]` cast to `[a, 1, 1]` reads, at `(p, u, v)`, the vector at `p`. -/
theorem shapeCast_a_a11_apply {a : ℕ} (x : (⟨1, ![a]⟩ : Shape).Idx → α) (h : (⟨1, ![a]⟩ : Shape).ShapeCasts ⟨3, ![a, 1, 1]⟩)
    (p : Fin a) (u v : Fin 1) : shapeCast ⟨3, ![a, 1, 1]⟩ x h (ix3 p u v) = x (ix1 p) :=
  shapeCast_apply x h _ _ (by
    have hu : u.val = 0 := by omega
    have hv : v.val = 0 := by omega
    rw [Shape.rowMajor_val_three, Shape.rowMajor_val_one]
    show p.val = (p.val * 1 + u.val) * 1 + v.val
    omega)

/-- An `[a, 1, 1]` array cast to a vector `[a]` reads, at `p`, the array at `(p, 0, 0)`. -/
theorem shapeCast_a11_a_apply {a : ℕ} (x : (⟨3, ![a, 1, 1]⟩ : Shape).Idx → α) (h : (⟨3, ![a, 1, 1]⟩ : Shape).ShapeCasts ⟨1, ![a]⟩)
    (p : Fin a) : shapeCast ⟨1, ![a]⟩ x h (ix1 p) = x (ix3 p (0 : Fin 1) (0 : Fin 1)) :=
  shapeCast_apply x h _ _ (by
    rw [Shape.rowMajor_val_three, Shape.rowMajor_val_one]
    show (p.val * 1 + 0) * 1 + 0 = p.val
    omega)

/-- A matrix `[a, b]` given a trailing unit axis reads, at `(p, q, u)`, the matrix at `(p, q)`. -/
theorem shapeCast_ab_ab1_apply {a b : ℕ} (x : (⟨2, ![a, b]⟩ : Shape).Idx → α) (h : (⟨2, ![a, b]⟩ : Shape).ShapeCasts ⟨3, ![a, b, 1]⟩)
    (p : Fin a) (q : Fin b) (u : Fin 1) : shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    omega)

/-- A matrix `[a, c]` given a middle unit axis reads, at `(p, u, r)`, the matrix at `(p, r)`. -/
theorem shapeCast_ac_a1c_apply {a c : ℕ} (x : (⟨2, ![a, c]⟩ : Shape).Idx → α) (h : (⟨2, ![a, c]⟩ : Shape).ShapeCasts ⟨3, ![a, 1, c]⟩)
    (p : Fin a) (u : Fin 1) (r : Fin c) : shapeCast ⟨3, ![a, 1, c]⟩ x h (ix3 p u r) = x (ix2 p r) :=
  shapeCast_apply x h _ _ (by
    have hu : u.val = 0 := by omega
    rw [Shape.rowMajor_val_three, Shape.rowMajor_val_two]
    show p.val * c + r.val = (p.val * 1 + u.val) * c + r.val
    rw [hu, Nat.mul_one, Nat.add_zero])

/-- A column `[a, 1]` broadcast to `[a, b]` reads, at `(p, q)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- An `[a, b, 1]` array broadcast along its last axis to `[a, b, c]` reads, at `(p, q, r)`, the array at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An `[a, 1, c]` array broadcast along its middle axis to `[a, b, c]` reads, at `(p, q, r)`, the array at `(p, 0, r)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- An `[a, 1, 1]` array broadcast to `[a, b, c]` reads, at `(p, q, r)`, the array at `(p, 0, 0)`. -/
theorem broadcastTo_a11_abc_apply {a b c : ℕ} (v : (⟨3, ![a, 1, 1]⟩ : Shape).Idx → α)
    (h : (⟨3, ![a, 1, 1]⟩ : Shape).Broadcasts ⟨3, ![a, b, c]⟩) (p : Fin a) (q : Fin b) (r : Fin c) :
    broadcastTo ⟨3, ![a, b, c]⟩ v h (ix3 p q r) = v (ix3 p (0 : Fin 1) (0 : Fin 1)) := by
  refine broadcastTo_apply v h (ix3 p q r) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

/-- A load through the unit-stride rectangle at offsets `off` reads, at position `y`, the contents at `off + y`. -/
theorem ld_unit_apply {Val : EltTy → Type} {S : Shape} {e : EltTy} (X : S.Idx → Val e) (off size : Fin S.rank → Nat)
    (inb : ∀ a, off a + size a ≤ S.size a) (y : (Rect.unit off size inb).shape.Idx) (k : S.Idx)
    (hk : ∀ a, (k a).val = off a + (y a).val) : View.ld X (Rect.unit off size inb) y = X k := by
  show X ((Rect.unit off size inb).emb y) = X k
  refine congrArg X (funext fun a => Fin.ext ?_)
  rw [hk a]
  show off a + 1 * (y a).val = _
  omega

end Idealize.ShloMosaic.UnitAxes
-- ==== Proof.PointBody.lean ====
/-
  What the kernel body leaves in the point-mask buffer, as a function of the block of point coordinates it was given.

  The body treats the 32 points one after the other, each time replacing its accumulator (zero at first) by the
  entrywise maximum of the accumulator and that point's contribution. A point's contribution is written here once, on
  whole vectors and in the body's own order of operations (`cellV`, `insideV`, `diffV`, `gaussV`), and the buffer's
  contents are then the left fold of that step over the points (`accV`, `out0_3_eq`).

  Read at one entry (b, i, j) and at the ideal values: row b's point p sits in the cell (cell x, cell y) of its two
  coordinates; the vector of grid coordinates holds n at place n; the differences to the grid coordinates are taken
  on 32-bit words and then read as numbers; so the contribution is `MaskSpec.gaussMul` of the two cells
  (`gaussV_apply`), and the fold is `MaskSpec.pointEntry` (`out0_3_apply`).
-/
import proofs.«142455_j67430986547716_2_alg».proof.Proof.Gen.KernelIdeal.Frame
import proofs.«142455_j67430986547716_2_alg».proof.Proof.MaskSpec
import proofs.«142455_j67430986547716_2_alg».proof.Proof.LibUnitAxes
import Idealize.ShloMosaic.Lib.ValueLayout

noncomputable section

namespace Cert.KernelIdeal.PointBody

open Cert.KernelIdeal Cert.KernelIdeal.Gen Idealize.ShloMosaic Idealize.ShloMosaic.ValueIdx Idealize.ShloMosaic.UnitAxes
open Idealize.SL.Sem Cert.MaskSpec

/-! ## One point's contribution, on whole vectors -/

section Vectors
variable {F : FTy → Type} [FloatOps F]

/-- The cells of a loaded column of 32 coordinates: floor of the quotient by 16, as words. -/
def cellV (v : Vec F S32x1x1 .f32) : IVec S32 32 :=
  fptosi 32 (floor (divf (shapeCast S32 v shapeCasts_S32x1x1_S32) (broadcast S32 (Scalar.ofBits .f32 0x41800000#32))))

/-- Row by row: does the cell (px, py) lie inside the 64 × 64 grid? -/
def insideV (px py : IVec S32 32) : IVec S32 1 :=
  andi (andi (andi (cmpi .sge px (broadcast S32 0#32)) (cmpi .sge py (broadcast S32 0#32))) (cmpi .slt px (broadcast S32 64#32)))
    (cmpi .slt py (broadcast S32 64#32))

/-- Row b, column n: grid coordinate n minus row b's cell, subtracted on words and then read as a number. -/
def diffV (v1 : IVec S64 32) (p : IVec S32 32) : FVec F S32x64 .f32 :=
  sitofp .f32 (subi (broadcastTo S32x64 (shapeCast S1x64 v1 shapeCasts_S64_S1x64) broadcasts_S1x64_S32x64)
    (broadcastTo S32x64 (shapeCast S32x1 p shapeCasts_S32_S32x1) broadcasts_S32x1_S32x64))

/-- One point's contribution to every entry: the gaussian of the squared distance to the point's cell, times the
    indicator that the cell is inside the grid. -/
def gaussV (v1 : IVec S64 32) (px py : IVec S32 32) : FVec F S32x64x64 .f32 :=
  mulf (exp (divf (subf (broadcast S32x64x64 (Scalar.ofBits .f32 0x00000000#32))
      (addf
        (broadcastTo S32x64x64 (mulf (shapeCast S32x64x1 (diffV (F := F) v1 py) shapeCasts_S32x64_S32x64x1) (shapeCast S32x64x1 (diffV (F := F) v1 py) shapeCasts_S32x64_S32x64x1)) broadcasts_S32x64x1_S32x64x64)
        (broadcastTo S32x64x64 (mulf (shapeCast S32x1x64 (diffV (F := F) v1 px) shapeCasts_S32x64_S32x1x64) (shapeCast S32x1x64 (diffV (F := F) v1 px) shapeCasts_S32x64_S32x1x64)) broadcasts_S32x1x64_S32x64x64)))
      (broadcast S32x64x64 (Scalar.ofBits .f32 0x445C8000#32))))
    (broadcastTo S32x64x64 (shapeCast S32x1x1 (sitofp .f32 (extui 32 (insideV px py) natLt_1_32) : FVec F S32 .f32) shapeCasts_S32_S32x1x1) broadcasts_S32x1x1_S32x64x64)

/-- Coordinate c of point p is a column of the block of point coordinates: offsets (0, p, c), sizes (32, 1, 1). -/
theorem inb_point (p : Fin 32) (c : Fin 2) : ∀ a, (![0, p.val, c.val] : Fin 3 → Nat) a + S32x1x1.size a ≤ S32x32x2.size a := by
  intro a
  have hp := p.isLt
  have hc := c.isLt
  match a with
  | ⟨0, _⟩ => show 0 + 32 ≤ 32; omega
  | ⟨1, _⟩ => show p.val + 1 ≤ 32; omega
  | ⟨2, _⟩ => show c.val + 1 ≤ 2; omega

abbrev rectOf (p : Fin 32) (c : Fin 2) : Rect S32x32x2 := Rect.unit (s := S32x32x2) ![0, p.val, c.val] S32x1x1.size (inb_point p c)

/-- The accumulator after all 32 points: from zero, the maximum with each point's contribution in turn. -/
def accV (x1 : Vec F S32x32x2 .f32) : FVec F S32x64x64 .f32 :=
  points.foldl (fun acc p => maximumf acc (gaussV k0_pay1 (cellV (View.ld x1 (rectOf p 0))) (cellV (View.ld x1 (rectOf p 1))))) k0_pay12

set_option maxRecDepth 16384 in
/-- The point-mask buffer after the body holds that accumulator: the body's 32 steps are this step 32 times. -/
theorem out0_3_eq (x0 : Vec F S32x4 .f32) (x1 : Vec F S32x32x2 .f32) : out0_3 x0 x1 = View.canon [⟨r0_4, accV x1⟩] := rfl

end Vectors

/-! ## Read at an entry, at the ideal values -/

theorem exp_apply {s : Shape} {φ : FTy} (a : FVec Ideal s φ) (i : s.Idx) : exp a i = Ideal.exp (a i) := rfl

/-- The vector of grid coordinates holds n at place n. -/
theorem grid_apply (n : Fin 64) : k0_pay1 (ix1 n) = gridWord n := by
  unfold k0_pay1
  rw [shapeCast_1a_a_apply, iota_single_apply]

theorem cellV_apply (v : Vec Ideal S32x1x1 .f32) (b : Fin 32) :
    cellV v (ix1 b) = cell (v (ix3 b (0 : Fin 1) (0 : Fin 1))) := by
  unfold cellV cell
  show Ideal.fptosi 32 (Ideal.liftRound Int.floor (Ideal.div (shapeCast S32 v shapeCasts_S32x1x1_S32 (ix1 b)) _)) = _
  rw [shapeCast_a11_a_apply]
  rfl

theorem insideV_apply (px py : IVec S32 32) (b : Fin 32) :
    insideV px py (ix1 b) = inside (px (ix1 b)) (py (ix1 b)) := rfl

theorem diffV_apply (v1 : IVec S64 32) (p : IVec S32 32) (b : Fin 32) (n : Fin 64) :
    diffV (F := Ideal) v1 p (ix2 b n) = num (v1 (ix1 n) - p (ix1 b)) := by
  unfold diffV
  show num (broadcastTo S32x64 (shapeCast S1x64 v1 shapeCasts_S64_S1x64) broadcasts_S1x64_S32x64 (ix2 b n)
      - broadcastTo S32x64 (shapeCast S32x1 p shapeCasts_S32_S32x1) broadcasts_S32x1_S32x64 (ix2 b n)) = _
  rw [broadcastTo_1b_ab_apply, shapeCast_a_1a_apply, broadcastTo_a1_ab_apply, shapeCast_a_a1_apply]

/-- One point's contribution at entry (b, i, j), when the grid vector holds n at place n. -/
theorem gaussV_apply (v1 : IVec S64 32) (hv : ∀ n : Fin 64, v1 (ix1 n) = gridWord n) (px py : IVec S32 32)
    (b : Fin 32) (i j : Fin 64) :
    gaussV (F := Ideal) v1 px py (ix3 b i j) = gaussMul (px (ix1 b)) (py (ix1 b)) i j := by
  unfold gaussV gaussMul gaussOfSub
  simp only [mulf_apply, addf_apply, subf_apply, divf_apply, broadcast_apply, exp_apply, sitofp_apply, extui_apply,
    broadcastTo_ab1_abc_apply, broadcastTo_a1c_abc_apply, broadcastTo_a11_abc_apply, shapeCast_ab_ab1_apply,
    shapeCast_ac_a1c_apply, shapeCast_a_a11_apply, diffV_apply, insideV_apply, hv]
  rfl

/-- An entrywise running maximum, read at one entry. -/
theorem foldl_maximumf_apply {ι : Type} {s : Shape} {φ : FTy} (g : ι → FVec Ideal s φ) (l : List ι) (c : FVec Ideal s φ)
    (y : s.Idx) : l.foldl (fun acc p => maximumf acc (g p)) c y = l.foldl (fun a p => max a (g p y)) (c y) := by
  induction l generalizing c with
  | nil => rfl
  | cons x l ih => rw [List.foldl_cons, List.foldl_cons, ih]; rfl

/-- Coordinate c of row b's point p, as the column load sees it. -/
theorem ld_point (x1 : Vec Ideal S32x32x2 .f32) (p : Fin 32) (c : Fin 2) (b : Fin 32) :
    View.ld x1 (rectOf p c) (ix3 b (0 : Fin 1) (0 : Fin 1)) = x1 (ix3 b p c) :=
  ld_unit_apply x1 ![0, p.val, c.val] S32x1x1.size (inb_point p c) (ix3 b (0 : Fin 1) (0 : Fin 1)) (ix3 b p c) fun a =>
    match a with
    | ⟨0, _⟩ => by show b.val = 0 + b.val; omega
    | ⟨1, _⟩ => by show p.val = p.val + 0; omega
    | ⟨2, _⟩ => by show c.val = c.val + 0; omega

/-- Entry (b, i, j) of the accumulator after all 32 points. -/
theorem accV_apply (x1 : Vec Ideal S32x32x2 .f32) (b : Fin 32) (i j : Fin 64) :
    accV x1 (ix3 b i j)
      = pointEntry (fun p => cell (x1 (ix3 b p (0 : Fin 2)))) (fun p => cell (x1 (ix3 b p (1 : Fin 2)))) i j := by
  unfold accV
  rw [foldl_maximumf_apply, ← foldl_gaussMul]
  have h0 : k0_pay12 (F := Ideal) (ix3 b i j) = 0 := Ideal.ofBits_zero_f32
  rw [h0]
  refine congrArg (fun f => List.foldl f (0 : EReal) points) (funext fun a => funext fun p => ?_)
  rw [gaussV_apply _ grid_apply, cellV_apply, cellV_apply, ld_point, ld_point]

theorem zero3 : (![0, 0, 0] : Fin 3 → Nat) = fun _ => 0 := by
  funext a
  match a with
  | ⟨0, _⟩ => rfl
  | ⟨1, _⟩ => rfl
  | ⟨2, _⟩ => rfl

/-- Entry (b, i, j) of the point-mask buffer after the body. -/
theorem out0_3_apply (x0 : Vec Ideal S32x4 .f32) (x1 : Vec Ideal S32x32x2 .f32) (b : Fin 32) (i j : Fin 64) :
    out0_3 x0 x1 (ix3 b i j)
      = pointEntry (fun p => cell (x1 (ix3 b p (0 : Fin 2)))) (fun p => cell (x1 (ix3 b p (1 : Fin 2)))) i j := by
  rw [out0_3_eq, View.canon_unit_zero zero3, accV_apply]

end Cert.KernelIdeal.PointBody

end
-- ==== Proof.BoxBody.lean ====
/-
  What the kernel body leaves in the box-mask buffer, read at one entry and at the ideal values.

  The body loads the four corner columns of its block of boxes (x0, y0, x1, y1), forms on each axis the first
  covered cell (`MaskSpec.lo`: the smaller corner's cell, not below 0) and one past the last (`MaskSpec.hi`: the larger
  corner's cell plus one, not above 64), compares the grid coordinates with them, reads the two resulting bits as
  numbers, lays the row bits along the second axis and the column bits along the third, and multiplies. So entry
  (b, i, j) is the product of box b's row bit at i and column bit at j, which is their conjunction read as a number
  (`MaskSpec.bit_mul`): `MaskSpec.boxEntry`.
-/
import proofs.«142455_j67430986547716_2_alg».proof.Proof.Gen.KernelIdeal.Frame
import proofs.«142455_j67430986547716_2_alg».proof.Proof.MaskSpec
import proofs.«142455_j67430986547716_2_alg».proof.Proof.LibUnitAxes
import proofs.«142455_j67430986547716_2_alg».proof.Proof.PointBody
import Idealize.ShloMosaic.Lib.ValueLayout

noncomputable section

namespace Cert.KernelIdeal.BoxBody

open Cert.KernelIdeal Cert.KernelIdeal.Gen Idealize.ShloMosaic Idealize.ShloMosaic.ValueIdx Idealize.ShloMosaic.UnitAxes
open Idealize.SL.Sem Cert.MaskSpec Cert.KernelIdeal.PointBody

theorem andi_apply {s : Shape} {w : Nat} (a b : IVec s w) (i : s.Idx) : andi a b i = IntOp.andi (a i) (b i) := rfl
theorem cmpi_apply {s : Shape} {w : Nat} (p : CmpIPredicate) (a b : IVec s w) (i : s.Idx) :
    cmpi p a b i = IntOp.cmpi p (a i) (b i) := rfl
theorem minsi_apply {s : Shape} {w : Nat} (a b : IVec s w) (i : s.Idx) : minsi a b i = IntOp.minsi (a i) (b i) := rfl

/-- The first covered cell of box b on the axis whose two corner columns are `a` and `c`. -/
theorem lo_x_apply (a c : Vec Ideal S32x1 .f32) (b : Fin 32) :
    k0_pay6 a c (ix1 b) = lo (a (ix2 b (0 : Fin 1))) (c (ix2 b (0 : Fin 1))) := by
  unfold k0_pay6 k0_pay2 k0_pay4 lo cell
  show IntOp.maxsi (Ideal.fptosi 32 (Ideal.liftRound Int.floor (Ideal.div
    (min (shapeCast S32 a shapeCasts_S32x1_S32 (ix1 b)) (shapeCast S32 c shapeCasts_S32x1_S32 (ix1 b))) _))) 0#32 = _
  rw [shapeCast_a1_a_apply, shapeCast_a1_a_apply]
  rfl

theorem lo_y_apply (a c : Vec Ideal S32x1 .f32) (b : Fin 32) :
    k0_pay7 a c (ix1 b) = lo (a (ix2 b (0 : Fin 1))) (c (ix2 b (0 : Fin 1))) := by
  unfold k0_pay7 k0_pay3 k0_pay5 lo cell
  show IntOp.maxsi (Ideal.fptosi 32 (Ideal.liftRound Int.floor (Ideal.div
    (min (shapeCast S32 a shapeCasts_S32x1_S32 (ix1 b)) (shapeCast S32 c shapeCasts_S32x1_S32 (ix1 b))) _))) 0#32 = _
  rw [shapeCast_a1_a_apply, shapeCast_a1_a_apply]
  rfl

/-- One past the last covered cell of box b on the x axis. -/
theorem hi_x_apply (a c : Vec Ideal S32x1 .f32) (b : Fin 32) :
    k0_pay8 a c (ix1 b) = hi (a (ix2 b (0 : Fin 1))) (c (ix2 b (0 : Fin 1))) := by
  unfold k0_pay8 k0_pay2 k0_pay4 hi cell
  show IntOp.minsi (IntOp.addi (Ideal.fptosi 32 (Ideal.liftRound Int.floor (Ideal.div
    (max (shapeCast S32 a shapeCasts_S32x1_S32 (ix1 b)) (shapeCast S32 c shapeCasts_S32x1_S32 (ix1 b))) _))) 1#32) 64#32 = _
  rw [shapeCast_a1_a_apply, shapeCast_a1_a_apply]
  rfl

/-- One past the last covered cell of box b on the y axis: the body clamps it to 64 one step later than on the x axis. -/
theorem hi_y_apply (a c : Vec Ideal S32x1 .f32) (b : Fin 32) :
    IntOp.minsi (k0_pay9 a c (ix1 b)) (k0_pay10 (ix1 b)) = hi (a (ix2 b (0 : Fin 1))) (c (ix2 b (0 : Fin 1))) := by
  unfold k0_pay9 k0_pay10 k0_pay3 k0_pay5 hi cell
  show IntOp.minsi (IntOp.addi (Ideal.fptosi 32 (Ideal.liftRound Int.floor (Ideal.div
    (max (shapeCast S32 a shapeCasts_S32x1_S32 (ix1 b)) (shapeCast S32 c shapeCasts_S32x1_S32 (ix1 b))) _))) 1#32) 64#32 = _
  rw [shapeCast_a1_a_apply, shapeCast_a1_a_apply]
  rfl

/-- The product the body stores, at entry (b, i, j), from the grid vector and the four bounds of box b. -/
theorem product_apply (v1 : IVec S64 32) (lox loy hix hiy0 c64 : IVec S32 32) (b : Fin 32) (i j : Fin 64) :
    k0_pay11 (F := Ideal) v1 lox loy hix hiy0 c64 (ix3 b i j)
      = num ((within (v1 (ix1 i)) (loy (ix1 b)) (IntOp.minsi (hiy0 (ix1 b)) (c64 (ix1 b)))).setWidth 32)
        * num ((within (v1 (ix1 j)) (lox (ix1 b)) (hix (ix1 b))).setWidth 32) := by
  unfold k0_pay11 within
  simp only [mulf_apply, sitofp_apply, extui_apply, andi_apply, cmpi_apply, minsi_apply,
    broadcastTo_ab1_abc_apply, broadcastTo_a1c_abc_apply, shapeCast_ab_ab1_apply, shapeCast_ac_a1c_apply,
    broadcastTo_1b_ab_apply, shapeCast_a_1a_apply, broadcastTo_a1_ab_apply, shapeCast_a_a1_apply]
  rfl

/-- Corner column k of box b, as the column load sees it. -/
theorem ld_corner (x0 : Vec Ideal S32x4 .f32) (k : Fin 4) (inb : ∀ a, (![0, k.val] : Fin 2 → Nat) a + S32x1.size a ≤ S32x4.size a)
    (b : Fin 32) : View.ld x0 (Rect.unit (s := S32x4) ![0, k.val] S32x1.size inb) (ix2 b (0 : Fin 1)) = x0 (ix2 b k) :=
  ld_unit_apply x0 ![0, k.val] S32x1.size inb (ix2 b (0 : Fin 1)) (ix2 b k) fun a =>
    match a with
    | ⟨0, _⟩ => by show b.val = 0 + b.val; omega
    | ⟨1, _⟩ => by show k.val = k.val + 0; omega

/-- Entry (b, i, j) of the box-mask buffer after the body. -/
theorem out0_2_apply (x0 : Vec Ideal S32x4 .f32) (x1 : Vec Ideal S32x32x2 .f32) (b : Fin 32) (i j : Fin 64) :
    out0_2 x0 x1 (ix3 b i j)
      = boxEntry (x0 (ix2 b (0 : Fin 4))) (x0 (ix2 b (1 : Fin 4))) (x0 (ix2 b (2 : Fin 4))) (x0 (ix2 b (3 : Fin 4))) i j := by
  unfold out0_2
  rw [View.canon_unit_zero zero3, product_apply, grid_apply, grid_apply, lo_x_apply, lo_y_apply, hi_x_apply, hi_y_apply]
  have e0 : View.ld x0 r0_0 (ix2 b (0 : Fin 1)) = x0 (ix2 b (0 : Fin 4)) := ld_corner x0 0 inb_S32x4_S32x1_0_0 b
  have e1 : View.ld x0 r0_1 (ix2 b (0 : Fin 1)) = x0 (ix2 b (1 : Fin 4)) := ld_corner x0 1 inb_S32x4_S32x1_0_1 b
  have e2 : View.ld x0 r0_2 (ix2 b (0 : Fin 1)) = x0 (ix2 b (2 : Fin 4)) := ld_corner x0 2 inb_S32x4_S32x1_0_2 b
  have e3 : View.ld x0 r0_3 (ix2 b (0 : Fin 1)) = x0 (ix2 b (3 : Fin 4)) := ld_corner x0 3 inb_S32x4_S32x1_0_3 b
  rw [e0, e1, e2, e3, bit_mul]
  rfl

end Cert.KernelIdeal.BoxBody

end
-- ==== Proof.MaskArrays.lean ====
/-
  The two masks as whole arrays: entry (n, i, j) of the box mask is `boxEntry` of box n's four corners at (i, j), and
  entry (n, i, j) of the point mask is `pointEntry` of the cells of row n's 32 points at (i, j). Both depend on the row
  n of the argument array only, which is why a block of rows of a mask is computed from the same block of rows of the
  argument.
-/
import proofs.«142455_j67430986547716_2_alg».proof.Proof.MaskSpec

noncomputable section

namespace Cert.MaskSpec

open Idealize.ShloMosaic Idealize.ShloMosaic.ValueIdx

/-- The box mask of an array of 256 boxes. -/
def boxMask (X : (⟨2, ![256, 4]⟩ : Shape).Idx → EReal) : (⟨3, ![256, 64, 64]⟩ : Shape).Idx → EReal := fun y =>
  boxEntry (X (ix2 (y 0) (0 : Fin 4))) (X (ix2 (y 0) (1 : Fin 4))) (X (ix2 (y 0) (2 : Fin 4))) (X (ix2 (y 0) (3 : Fin 4)))
    (y 1) (y 2)

/-- The point mask of an array of 256 rows of 32 points. -/
def pointMask (X : (⟨3, ![256, 32, 2]⟩ : Shape).Idx → EReal) : (⟨3, ![256, 64, 64]⟩ : Shape).Idx → EReal := fun y =>
  pointEntry (fun p => cell (X (ix3 (y 0) p (0 : Fin 2)))) (fun p => cell (X (ix3 (y 0) p (1 : Fin 2)))) (y 1) (y 2)

theorem boxEntry_congr {a0 a1 a2 a3 b0 b1 b2 b3 : EReal} {i i' j j' : Fin 64} (h0 : a0 = b0) (h1 : a1 = b1) (h2 : a2 = b2)
    (h3 : a3 = b3) (hi : i = i') (hj : j = j') : boxEntry a0 a1 a2 a3 i j = boxEntry b0 b1 b2 b3 i' j' := by
  subst h0 h1 h2 h3 hi hj; rfl

theorem pointEntry_congr {cx cy cx' cy' : Fin 32 → BitVec 32} {i i' j j' : Fin 64} (hx : ∀ p, cx p = cx' p)
    (hy : ∀ p, cy p = cy' p) (hi : i = i') (hj : j = j') : pointEntry cx cy i j = pointEntry cx' cy' i' j' := by
  obtain rfl : cx = cx' := funext hx
  obtain rfl : cy = cy' := funext hy
  subst hi hj; rfl

end Cert.MaskSpec

end
-- ==== Proof.WholeMasks.lean ====
/-
  From blocks to arrays: what the two output arrays hold after the kernel has run over its grid.

  The grid has 8 points; point t handles rows 32 t to 32 t + 31 of every array (block index (t, 0) or (t, 0, 0), decided
  once over the 8 points). Entry (b, i, j) of point t's block of a mask was computed from row b of point t's blocks of
  the arguments, that is, from row 32 t + b of the argument arrays; and both masks depend only on that row. So what
  point t writes back is block t of the whole mask (`flushed_box`, `flushed_point`). Row n lies in block n / 32, so
  the 8 blocks cover every index (`cover_box`, `cover_point`), and the arrays end holding the whole masks.
-/
import proofs.«142455_j67430986547716_2_alg».proof.Proof.Gen.KernelIdeal.Value
import proofs.«142455_j67430986547716_2_alg».proof.Proof.BoxBody
import proofs.«142455_j67430986547716_2_alg».proof.Proof.PointBody
import proofs.«142455_j67430986547716_2_alg».proof.Proof.MaskArrays

noncomputable section

namespace Cert.KernelIdeal.WholeMasks

open Cert.KernelIdeal Cert.KernelIdeal.Gen Idealize.ShloMosaic Idealize.ShloMosaic.TcCoe Idealize.ShloMosaic.ValueIdx
open Idealize.SL.Sem Cert.MaskSpec
open Idealize.ShloMosaic.Pipeline (Dat)

variable (m : (ℓ : Loc nD τ sig) → Buf (Elt Ideal) ℓ) (ρ : Dev nD → PrngReg)

/-- Point t's block index in each window is (t, 0, …). -/
theorem index_facts : ∀ t : Fin cfg0.N,
    win0_0.index t (0 : Fin 2) = win0_2.index t (0 : Fin 3) ∧ win0_0.index t (1 : Fin 2) = 0
    ∧ win0_1.index t (0 : Fin 3) = win0_2.index t (0 : Fin 3) ∧ win0_1.index t (1 : Fin 3) = 0 ∧ win0_1.index t (2 : Fin 3) = 0
    ∧ win0_2.index t (1 : Fin 3) = 0 ∧ win0_2.index t (2 : Fin 3) = 0
    ∧ win0_3.index t (0 : Fin 3) = win0_2.index t (0 : Fin 3) ∧ win0_3.index t (1 : Fin 3) = 0 ∧ win0_3.index t (2 : Fin 3) = 0 :=
  (by decide +kernel : ∀ t : Fin grid0.N, _)

/-- Every block of 32 rows is some point's. -/
theorem index_onto : ∀ q : Fin 8, ∃ t : Fin cfg0.N, win0_2.index t = ![q.val, 0, 0] ∧ win0_3.index t = ![q.val, 0, 0] :=
  (by decide +kernel : ∀ q : Fin 8, ∃ t : Fin grid0.N, win0_2.index t = ![q.val, 0, 0] ∧ win0_3.index t = ![q.val, 0, 0])

/-! ## The box mask -/

/-- What point t writes back to the box-mask array is block t of the box mask of the array of boxes. -/
theorem flushed_box (c : Dev nD) (t : Fin cfg0.N) :
    (dats m 0 c).flushed 2 t = ((cfg0.win 2).blk t).view.read (Elt Ideal) (boxMask (V m c main_arg0)) := by
  rw [Value.flushed2]
  obtain ⟨a0, a1, b0, b1, b2, c1, c2, d0, d1, d2⟩ := index_facts t
  funext y
  obtain ⟨b, i, j, rfl⟩ : ∃ (b : Fin 32) (i j : Fin 64), y = ix3 b i j := ⟨y 0, y 1, y 2, eq_ix3 y⟩
  show out0_2 (iblk m c 0 t) (iblk m c 1 t) (ix3 b i j)
    = boxMask (V m c main_arg0) (((cfg0.win 2).blk t).view.emb (ix3 b i j))
  refine (BoxBody.out0_2_apply (iblk m c 0 t) (iblk m c 1 t) b i j).trans ?_
  unfold boxMask
  have hrow : ∀ k : Fin 4, iblk m c 0 t (ix2 b k)
      = V m c main_arg0 (ix2 ((((cfg0.win 2).blk t).view.emb (ix3 b i j)) 0) k) := by
    intro k
    show V m c main_arg0 (((cfg0.win 0).blk t).view.emb (ix2 b k)) = _
    refine congrArg (V m c main_arg0) (funext fun a => Fin.ext ?_)
    match a with
    | ⟨0, _⟩ =>
      show win0_0.index t (0 : Fin 2) * 32 + 1 * b.val = win0_2.index t (0 : Fin 3) * 32 + 1 * b.val
      omega
    | ⟨1, _⟩ =>
      show win0_0.index t (1 : Fin 2) * 4 + 1 * k.val = k.val
      omega
  have hi : (((cfg0.win 2).blk t).view.emb (ix3 b i j)) 1 = i :=
    Fin.ext (by show win0_2.index t (1 : Fin 3) * 64 + 1 * i.val = i.val; omega)
  have hj : (((cfg0.win 2).blk t).view.emb (ix3 b i j)) 2 = j :=
    Fin.ext (by show win0_2.index t (2 : Fin 3) * 64 + 1 * j.val = j.val; omega)
  exact boxEntry_congr (hrow 0) (hrow 1) (hrow 2) (hrow 3) hi.symm hj.symm

/-- An index of the box-mask array is in point t's block iff each coordinate is in the block's range on its axis. -/
theorem mem_blk_box (t : Fin cfg0.N) (i : S256x64x64.Idx) :
    i ∈ ((cfg0.win 2).blk t).view.set ↔ ∀ a : Fin 3, win0_2.index t a * S32x64x64.size a ≤ (i a).val
      ∧ (i a).val < win0_2.index t a * S32x64x64.size a + S32x64x64.size a := by
  show i ∈ ((View.whole main_v0_0).slice (win0_2.rect t)).set ↔ _
  rw [View.set_slice_whole, Rect.mem_set_unit]
  exact Iff.rfl

/-- Row n is in block n / 32: every index is in some point's block. -/
theorem cover_box (i : S256x64x64.Idx) :
    ∃ t : Fin cfg0.N, (cfg0.win 2).flush t = true ∧ i ∈ ((cfg0.win 2).blk t).view.set := by
  have h0 : (i 0).val < 256 := (i 0).isLt
  have h1 : (i 1).val < 64 := (i 1).isLt
  have h2 : (i 2).val < 64 := (i 2).isLt
  obtain ⟨t, ht, -⟩ := index_onto ⟨(i 0).val / 32, by omega⟩
  have q0 : win0_2.index t (0 : Fin 3) = (i 0).val / 32 := congrFun ht 0
  have q1 : win0_2.index t (1 : Fin 3) = 0 := congrFun ht 1
  have q2 : win0_2.index t (2 : Fin 3) = 0 := congrFun ht 2
  refine ⟨t, flush0_2 t, ?_⟩
  rw [mem_blk_box]
  intro a
  match a with
  | ⟨0, _⟩ =>
    show win0_2.index t (0 : Fin 3) * 32 ≤ (i 0).val ∧ (i 0).val < win0_2.index t (0 : Fin 3) * 32 + 32
    omega
  | ⟨1, _⟩ =>
    show win0_2.index t (1 : Fin 3) * 64 ≤ (i 1).val ∧ (i 1).val < win0_2.index t (1 : Fin 3) * 64 + 64
    omega
  | ⟨2, _⟩ =>
    show win0_2.index t (2 : Fin 3) * 64 ≤ (i 2).val ∧ (i 2).val < win0_2.index t (2 : Fin 3) * 64 + 64
    omega

/-- The box-mask array after the run. -/
theorem final_box (c : Dev nD) :
    (dats m 0 c).arrAt 2 cfg0.N = boxMask (m ((c : Thread nD τ).loc main_arg0)) :=
  (dats m 0 c).arrAt_eq_of_cover 2 (boxMask (V m c main_arg0)) (fun t _ => flushed_box m c t) cover_box

/-! ## The point mask -/

/-- What point t writes back to the point-mask array is block t of the point mask of the array of points. -/
theorem flushed_point (c : Dev nD) (t : Fin cfg0.N) :
    (dats m 0 c).flushed 3 t = ((cfg0.win 3).blk t).view.read (Elt Ideal) (pointMask (V m c main_arg1)) := by
  rw [Value.flushed3]
  obtain ⟨a0, a1, b0, b1, b2, c1, c2, d0, d1, d2⟩ := index_facts t
  funext y
  obtain ⟨b, i, j, rfl⟩ : ∃ (b : Fin 32) (i j : Fin 64), y = ix3 b i j := ⟨y 0, y 1, y 2, eq_ix3 y⟩
  show out0_3 (iblk m c 0 t) (iblk m c 1 t) (ix3 b i j)
    = pointMask (V m c main_arg1) (((cfg0.win 3).blk t).view.emb (ix3 b i j))
  refine (PointBody.out0_3_apply (iblk m c 0 t) (iblk m c 1 t) b i j).trans ?_
  unfold pointMask
  have hpt : ∀ (p : Fin 32) (k : Fin 2), iblk m c 1 t (ix3 b p k)
      = V m c main_arg1 (ix3 ((((cfg0.win 3).blk t).view.emb (ix3 b i j)) 0) p k) := by
    intro p k
    show V m c main_arg1 (((cfg0.win 1).blk t).view.emb (ix3 b p k)) = _
    refine congrArg (V m c main_arg1) (funext fun a => Fin.ext ?_)
    match a with
    | ⟨0, _⟩ =>
      show win0_1.index t (0 : Fin 3) * 32 + 1 * b.val = win0_3.index t (0 : Fin 3) * 32 + 1 * b.val
      omega
    | ⟨1, _⟩ =>
      show win0_1.index t (1 : Fin 3) * 32 + 1 * p.val = p.val
      omega
    | ⟨2, _⟩ =>
      show win0_1.index t (2 : Fin 3) * 2 + 1 * k.val = k.val
      omega
  have hi : (((cfg0.win 3).blk t).view.emb (ix3 b i j)) 1 = i :=
    Fin.ext (by show win0_3.index t (1 : Fin 3) * 64 + 1 * i.val = i.val; omega)
  have hj : (((cfg0.win 3).blk t).view.emb (ix3 b i j)) 2 = j :=
    Fin.ext (by show win0_3.index t (2 : Fin 3) * 64 + 1 * j.val = j.val; omega)
  exact pointEntry_congr (fun p => congrArg cell (hpt p 0)) (fun p => congrArg cell (hpt p 1)) hi.symm hj.symm

theorem mem_blk_point (t : Fin cfg0.N) (i : S256x64x64.Idx) :
    i ∈ ((cfg0.win 3).blk t).view.set ↔ ∀ a : Fin 3, win0_3.index t a * S32x64x64.size a ≤ (i a).val
      ∧ (i a).val < win0_3.index t a * S32x64x64.size a + S32x64x64.size a := by
  show i ∈ ((View.whole main_v0_1).slice (win0_3.rect t)).set ↔ _
  rw [View.set_slice_whole, Rect.mem_set_unit]
  exact Iff.rfl

theorem cover_point (i : S256x64x64.Idx) :
    ∃ t : Fin cfg0.N, (cfg0.win 3).flush t = true ∧ i ∈ ((cfg0.win 3).blk t).view.set := by
  have h0 : (i 0).val < 256 := (i 0).isLt
  have h1 : (i 1).val < 64 := (i 1).isLt
  have h2 : (i 2).val < 64 := (i 2).isLt
  obtain ⟨t, -, ht⟩ := index_onto ⟨(i 0).val / 32, by omega⟩
  have q0 : win0_3.index t (0 : Fin 3) = (i 0).val / 32 := congrFun ht 0
  have q1 : win0_3.index t (1 : Fin 3) = 0 := congrFun ht 1
  have q2 : win0_3.index t (2 : Fin 3) = 0 := congrFun ht 2
  refine ⟨t, flush0_3 t, ?_⟩
  rw [mem_blk_point]
  intro a
  match a with
  | ⟨0, _⟩ =>
    show win0_3.index t (0 : Fin 3) * 32 ≤ (i 0).val ∧ (i 0).val < win0_3.index t (0 : Fin 3) * 32 + 32
    omega
  | ⟨1, _⟩ =>
    show win0_3.index t (1 : Fin 3) * 64 ≤ (i 1).val ∧ (i 1).val < win0_3.index t (1 : Fin 3) * 64 + 64
    omega
  | ⟨2, _⟩ =>
    show win0_3.index t (2 : Fin 3) * 64 ≤ (i 2).val ∧ (i 2).val < win0_3.index t (2 : Fin 3) * 64 + 64
    omega

/-- The point-mask array after the run. -/
theorem final_point (c : Dev nD) :
    (dats m 0 c).arrAt 3 cfg0.N = pointMask (m ((c : Thread nD τ).loc main_arg1)) :=
  (dats m 0 c).arrAt_eq_of_cover 3 (pointMask (V m c main_arg1)) (fun t _ => flushed_point m c t) cover_point

/-! ## The run -/

/-- Every weakly fair execution of the kernel's program ends with the two result arrays at the two masks of the
    argument arrays, the arguments unchanged. -/
theorem run : θ_run defs (onTc (τ := τ) (main (F := Ideal))) ⟨m, fun _ => 0, ρ⟩ fun r => ∀ c : Dev nD,
      r.2.mem ((c : Thread nD τ).loc main_v0_0) = boxMask (m ((c : Thread nD τ).loc main_arg0))
      ∧ r.2.mem ((c : Thread nD τ).loc main_v0_1) = pointMask (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_box m c), (h c).2.1.trans (final_point m c),
      (h c).2.2.1, (h c).2.2.2⟩)
    (Value.run_blocks m ρ)

end Cert.KernelIdeal.WholeMasks

end
-- ==== Proof.BoxRef.lean ====
/-
  The reference's box mask, read at one entry and at the ideal values.

  The reference slices the four corner columns out of the array of boxes, forms on each axis the first covered cell
  (`MaskSpec.lo`) and one past the last (`MaskSpec.hi`), compares the grid coordinates with them to get a column bit per
  (box, column) and a row bit per (box, row), spreads both over (box, row, column), takes their conjunction and reads
  it as a number: `MaskSpec.boxEntry` of the box's four corners.

  Every statement is for an arbitrary index, with its coordinates on the right-hand side; the index maps of the
  slices, reshapes and broadcasts in between only select coordinates, so they disappear by computation.
-/
import proofs.«142455_j67430986547716_2_alg».proof.Proof.Gen.ReferenceIdeal.Read
import proofs.«142455_j67430986547716_2_alg».proof.Proof.MaskSpec

noncomputable section

namespace Cert.ReferenceIdeal.BoxRef

open Cert.ReferenceIdeal Cert.ReferenceIdeal.Gen Cert.ReferenceIdeal.Read Idealize.ShloMosaic Idealize.ShloMosaic.ValueIdx
open Cert.MaskSpec

abbrev Boxes := (⟨S256x4, .f32⟩ : BufTy).Contents (Elt Ideal)

/-! ## The four corner columns -/

theorem corner_x0 (x0 : Boxes) (i : S256.Idx) : val_main_v2 (F := Ideal) x0 i = x0 (ix2 (i 0) (0 : Fin 4)) := by
  rw [val_main_v2_apply, val_main_v1_apply]
  refine congrArg x0 (funext fun a => Fin.ext ?_)
  match a with
  | ⟨0, _⟩ => exact Nat.div_one _
  | ⟨1, _⟩ => rfl

theorem corner_y0 (x0 : Boxes) (i : S256.Idx) : val_main_v4 (F := Ideal) x0 i = x0 (ix2 (i 0) (1 : Fin 4)) := by
  rw [val_main_v4_apply, val_main_v3_apply]
  refine congrArg x0 (funext fun a => Fin.ext ?_)
  match a with
  | ⟨0, _⟩ => exact Nat.div_one _
  | ⟨1, _⟩ => rfl

theorem corner_x1 (x0 : Boxes) (i : S256.Idx) : val_main_v6 (F := Ideal) x0 i = x0 (ix2 (i 0) (2 : Fin 4)) := by
  rw [val_main_v6_apply, val_main_v5_apply]
  refine congrArg x0 (funext fun a => Fin.ext ?_)
  match a with
  | ⟨0, _⟩ => exact Nat.div_one _
  | ⟨1, _⟩ => rfl

theorem corner_y1 (x0 : Boxes) (i : S256.Idx) : val_main_v8 (F := Ideal) x0 i = x0 (ix2 (i 0) (3 : Fin 4)) := by
  rw [val_main_v8_apply, val_main_v7_apply]
  refine congrArg x0 (funext fun a => Fin.ext ?_)
  match a with
  | ⟨0, _⟩ => exact Nat.div_one _
  | ⟨1, _⟩ => rfl

/-! ## The covered range on each axis -/

theorem lo_x (x0 : Boxes) (i : S256.Idx) :
    val_main_v18 (F := Ideal) x0 i = lo (x0 (ix2 (i 0) (0 : Fin 4))) (x0 (ix2 (i 0) (2 : Fin 4))) := by
  simp only [val_main_v18_apply, val_main_v17_apply, val_main_c_apply, val_main_v16_apply, val_main_v15_apply,
    val_main_v14_apply, val_main_v13_apply, val_main_cst_apply, val_main_v9_apply, corner_x0, corner_x1]
  rfl

theorem lo_y (x0 : Boxes) (i : S256.Idx) :
    val_main_v24 (F := Ideal) x0 i = lo (x0 (ix2 (i 0) (1 : Fin 4))) (x0 (ix2 (i 0) (3 : Fin 4))) := by
  simp only [val_main_v24_apply, val_main_v23_apply, val_main_c_1_apply, val_main_v22_apply, val_main_v21_apply,
    val_main_v20_apply, val_main_v19_apply, val_main_cst_0_apply, val_main_v11_apply, corner_y0, corner_y1]
  rfl

theorem hi_x (x0 : Boxes) (i : S256.Idx) :
    val_main_v32 (F := Ideal) x0 i = hi (x0 (ix2 (i 0) (0 : Fin 4))) (x0 (ix2 (i 0) (2 : Fin 4))) := by
  simp only [val_main_v32_apply, val_main_v31_apply, val_main_c_4_apply, val_main_v30_apply, val_main_v29_apply,
    val_main_c_3_apply, val_main_v28_apply, val_main_v27_apply, val_main_v26_apply, val_main_v25_apply,
    val_main_cst_2_apply, val_main_v10_apply, corner_x0, corner_x1]
  rfl

theorem hi_y (x0 : Boxes) (i : S256.Idx) :
    val_main_v40 (F := Ideal) x0 i = hi (x0 (ix2 (i 0) (1 : Fin 4))) (x0 (ix2 (i 0) (3 : Fin 4))) := by
  simp only [val_main_v40_apply, val_main_v39_apply, val_main_c_7_apply, val_main_v38_apply, val_main_v37_apply,
    val_main_c_6_apply, val_main_v36_apply, val_main_v35_apply, val_main_v34_apply, val_main_v33_apply,
    val_main_cst_5_apply, val_main_v12_apply, corner_y0, corner_y1]
  rfl

/-! ## The two indicator bits, and the mask -/

/-- The column bit of box `i 0` at column `i 1`. -/
theorem col_bit (x0 : Boxes) (i : S256x64.Idx) :
    val_main_v51 (F := Ideal) x0 i = colBit (x0 (ix2 (i 0) (0 : Fin 4))) (x0 (ix2 (i 0) (2 : Fin 4))) (i 1) := by
  simp only [val_main_v51_apply, val_main_v45_apply, val_main_v50_apply, val_main_v43_apply, val_main_v44_apply,
    val_main_v41_apply, val_main_v42_apply, val_main_v48_apply, val_main_v49_apply, val_main_v46_apply,
    val_main_v47_apply, val_main_v0_apply, lo_x, hi_x]
  rfl

/-- The row bit of box `i 0` at row `i 1`. -/
theorem row_bit (x0 : Boxes) (i : S256x64.Idx) :
    val_main_v62 (F := Ideal) x0 i = rowBit (x0 (ix2 (i 0) (1 : Fin 4))) (x0 (ix2 (i 0) (3 : Fin 4))) (i 1) := by
  simp only [val_main_v62_apply, val_main_v56_apply, val_main_v61_apply, val_main_v54_apply, val_main_v55_apply,
    val_main_v52_apply, val_main_v53_apply, val_main_v59_apply, val_main_v60_apply, val_main_v57_apply,
    val_main_v58_apply, val_main_v0_apply, lo_y, hi_y]
  rfl

/-- Entry `i` of the reference's box mask. -/
theorem box_apply (x0 : Boxes) (i : S256x64x64.Idx) :
    val_main_v68 (F := Ideal) x0 i
      = boxEntry (x0 (ix2 (i 0) (0 : Fin 4))) (x0 (ix2 (i 0) (1 : Fin 4))) (x0 (ix2 (i 0) (2 : Fin 4)))
          (x0 (ix2 (i 0) (3 : Fin 4))) (i 1) (i 2) := by
  simp only [val_main_v68_apply, val_main_v67_apply, val_main_v65_apply, val_main_v66_apply, val_main_v63_apply,
    val_main_v64_apply, row_bit, col_bit]
  rfl

end Cert.ReferenceIdeal.BoxRef

end
-- ==== Proof.PointRef.lean ====
/-
  The reference's point mask, read at one entry and at the ideal values.

  For every (row, point) the reference forms the point's cell (`MaskSpec.cell` of each coordinate) and the bit saying
  whether it lies inside the grid; for every (row, point, i, j) it subtracts the cell from the grid coordinates,
  squares and adds the differences as 32-bit words, reads the sum as a number, takes the gaussian, and selects it or
  0 by the bit: `MaskSpec.gaussSel`. It then takes, from minus infinity, the maximum over the points: the largest
  contribution, `MaskSpec.pointEntry`.
-/
import proofs.«142455_j67430986547716_2_alg».proof.Proof.Gen.ReferenceIdeal.Read
import proofs.«142455_j67430986547716_2_alg».proof.Proof.MaskSpec
import Idealize.ShloMosaic.PureOps.Ideal.Laws
import Idealize.ShloMosaic.PureOps.Reduce

noncomputable section

namespace Cert.ReferenceIdeal.PointRef

open Cert.ReferenceIdeal Cert.ReferenceIdeal.Gen Cert.ReferenceIdeal.Read Idealize.ShloMosaic Idealize.ShloMosaic.ValueIdx
open Cert.MaskSpec

abbrev Points := (⟨S256x32x2, .f32⟩ : BufTy).Contents (Elt Ideal)

/-! ## A point's cell and its indicator -/

theorem cell_x (x1 : Points) (i : S256x32.Idx) :
    val_main_v74 (F := Ideal) x1 i = cell (x1 (ix3 (i 0) (i 1) (0 : Fin 2))) := by
  simp only [val_main_v74_apply, val_main_v73_apply, val_main_v72_apply, val_main_v71_apply, val_main_cst_8_apply,
    val_main_v70_apply, val_main_v69_apply]
  have e : idx_main_v69 (idx_main_v70 i) = ix3 (i 0) (i 1) (0 : Fin 2) := by
    funext a
    apply Fin.ext
    have h1 : (i 1).val < 32 := (i 1).isLt
    match a with
    | ⟨0, _⟩ => show ((i 0).val * 32 + (i 1).val) / 32 = (i 0).val; omega
    | ⟨1, _⟩ => show ((i 0).val * 32 + (i 1).val) / 1 % 32 = (i 1).val; omega
    | ⟨2, _⟩ => rfl
  rw [e]
  rfl

theorem cell_y (x1 : Points) (i : S256x32.Idx) :
    val_main_v80 (F := Ideal) x1 i = cell (x1 (ix3 (i 0) (i 1) (1 : Fin 2))) := by
  simp only [val_main_v80_apply, val_main_v79_apply, val_main_v78_apply, val_main_v77_apply, val_main_cst_9_apply,
    val_main_v76_apply, val_main_v75_apply]
  have e : idx_main_v75 (idx_main_v76 i) = ix3 (i 0) (i 1) (1 : Fin 2) := by
    funext a
    apply Fin.ext
    have h1 : (i 1).val < 32 := (i 1).isLt
    match a with
    | ⟨0, _⟩ => show ((i 0).val * 32 + (i 1).val) / 32 = (i 0).val; omega
    | ⟨1, _⟩ => show ((i 0).val * 32 + (i 1).val) / 1 % 32 = (i 1).val; omega
    | ⟨2, _⟩ => rfl
  rw [e]
  rfl

theorem inside_bit (x1 : Points) (i : S256x32.Idx) :
    val_main_v91 (F := Ideal) x1 i
      = inside (cell (x1 (ix3 (i 0) (i 1) (0 : Fin 2)))) (cell (x1 (ix3 (i 0) (i 1) (1 : Fin 2)))) := by
  simp only [val_main_v91_apply, val_main_v88_apply, val_main_v90_apply, val_main_v85_apply, val_main_v87_apply,
    val_main_v82_apply, val_main_v84_apply, val_main_v81_apply, val_main_v83_apply, val_main_v86_apply,
    val_main_v89_apply, val_main_c_10_apply, val_main_c_11_apply, val_main_c_12_apply, val_main_c_13_apply,
    cell_x, cell_y]
  rfl

/-! ## A point's contribution -/

/-- The contribution of point `i 1` of row `i 0` at entry (`i 2`, `i 3`). -/
theorem contribution (x1 : Points) (i : S256x32x64x64.Idx) :
    val_main_v113 (F := Ideal) x1 i
      = gaussSel (cell (x1 (ix3 (i 0) (i 1) (0 : Fin 2)))) (cell (x1 (ix3 (i 0) (i 1) (1 : Fin 2)))) (i 2) (i 3) := by
  simp only [val_main_v113_apply, val_main_call0_v1_apply, val_main_call0_v2_apply, val_main_call0_v0_apply,
    val_main_cst_15_apply, val_main_v112_apply, val_main_v111_apply, val_main_v110_apply, val_main_v109_apply,
    val_main_cst_14_apply, val_main_v108_apply, val_main_v107_apply, val_main_v106_apply, val_main_v104_apply,
    val_main_v105_apply, val_main_v102_apply, val_main_v103_apply, val_main_v101_apply, val_main_v96_apply,
    val_main_v99_apply, val_main_v100_apply, val_main_v97_apply, val_main_v98_apply, val_main_v94_apply,
    val_main_v95_apply, val_main_v92_apply, val_main_v93_apply, val_main_v0_apply, inside_bit, cell_x, cell_y]
  rfl

/-! ## The maximum over the points -/

/-- A result index with point `k` put back on the second axis. -/
theorem lift_point (h : S256x32x64x64.Reduces [1] S256x64x64) (j : S256x64x64.Idx) (k : Fin (S256x32x64x64.size 1)) :
    h.lift j k = ix4 (j 0) (⟨k.val, k.isLt⟩ : Fin 32) (j 1) (j 2) := by
  funext c
  apply Fin.ext
  fin_cases c <;> rfl

/-- Entry `j` of the reference's point mask. -/
theorem point_apply (x1 : Points) (j : S256x64x64.Idx) :
    val_main_v114 (F := Ideal) x1 j
      = pointEntry (fun p => cell (x1 (ix3 (j 0) p (0 : Fin 2)))) (fun p => cell (x1 (ix3 (j 0) p (1 : Fin 2)))) (j 1) (j 2) := by
  unfold val_main_v114
  have h : S256x32x64x64.Reduces [1] S256x64x64 := by decide
  rw [Host.reduce_eq_fold_single FloatOps.maximumf _ _ reducesTo_S256x32x64x64_S256x64x64_d1 h h_S_]
  have hb : val_main_cst_16 (F := Ideal) (Shape.Idx.first h_S_) = (⊥ : EReal) := by
    show Ideal.ofBits .f32 0xFF800000#32 = ⊥
    simp [Ideal.ofBits, Ideal.ieee]
  rw [hb]
  show (Finset.univ : Finset (Fin 32)).sup (fun k : Fin 32 => val_main_v113 (F := Ideal) x1 (h.lift j k)) = _
  unfold pointEntry
  refine congrArg (Finset.univ : Finset (Fin 32)).sup (funext fun k => ?_)
  exact (congrArg (val_main_v113 (F := Ideal) x1) (lift_point h j k)).trans (contribution x1 _)

end Cert.ReferenceIdeal.PointRef

end
-- ==== Proof.lean ====
/-
  Two masks over a 64 × 64 grid of cells of 16 × 16 pixels, for 256 rows of inputs, computed two ways.

  BOX MASK. Each row has a box with corners (x0, y0), (x1, y1). On each axis the box covers the cells from the smaller
  corner's cell (not below 0) up to the larger corner's cell (not above 63); entry (i, j) is 1 when row i and column j
  are both covered, else 0. One program multiplies the row and column indicators as numbers, the other takes their
  conjunction and reads it as a number; two bits multiply to their conjunction.

  POINT MASK. Each row has 32 points. A point whose cell (px, py) lies inside the grid contributes
  exp(-((i - py)² + (j - px)²) / 882) to entry (i, j), any other point contributes 0, and the entry is the largest
  contribution. One program squares the differences as real numbers, multiplies the gaussian by the inside-the-grid
  indicator and keeps a running maximum from 0 over the 32 points; the other squares and adds the differences as 32-bit
  words, selects the gaussian or 0, and takes the maximum from minus infinity. Inside the grid the differences lie
  strictly between -64 and 64, so the words do not wrap and the two squared distances are the same number; outside, a
  product with 0 is 0; and since every contribution is at least 0, starting the maximum from 0 changes nothing.

  Both masks are functions of the argument arrays, entry by entry (`MaskSpec.boxMask`, `MaskSpec.pointMask`). The first
  program is run block by block over 8 blocks of 32 rows and its result arrays end at these functions
  (`WholeMasks.run`); the second program's results are these functions read one operation at a time (`BoxRef.box_apply`,
  `PointRef.point_apply`). Nothing here uses that the inputs are finite: converting a coordinate to its cell is one and
  the same function on both sides, whatever the coordinate.
-/
import proofs.«142455_j67430986547716_2_alg».proof.Defs
import proofs.«142455_j67430986547716_2_alg».proof.Proof.Gen.Kernel
import proofs.«142455_j67430986547716_2_alg».proof.Proof.Gen.Kernel.Skeleton
import proofs.«142455_j67430986547716_2_alg».proof.Proof.Gen.Kernel.Launch
import proofs.«142455_j67430986547716_2_alg».proof.Proof.Gen.Kernel.Points
import proofs.«142455_j67430986547716_2_alg».proof.Proof.Gen.Kernel.Frame
import proofs.«142455_j67430986547716_2_alg».proof.Proof.Gen.KernelIdeal
import proofs.«142455_j67430986547716_2_alg».proof.Proof.Gen.KernelIdeal.Skeleton
import proofs.«142455_j67430986547716_2_alg».proof.Proof.Gen.KernelIdeal.Launch
import proofs.«142455_j67430986547716_2_alg».proof.Proof.Gen.KernelIdeal.Points
import proofs.«142455_j67430986547716_2_alg».proof.Proof.Gen.KernelIdeal.Frame
import proofs.«142455_j67430986547716_2_alg».proof.Proof.Gen.ReferenceIdeal
import proofs.«142455_j67430986547716_2_alg».proof.Proof.Gen.Pre_finite_inputs
import proofs.«142455_j67430986547716_2_alg».proof.Proof.Gen.KernelIdeal.Value
import proofs.«142455_j67430986547716_2_alg».proof.Proof.Gen.ReferenceIdeal.Run
import proofs.«142455_j67430986547716_2_alg».proof.Proof.Gen.ReferenceIdeal.Read
import proofs.«142455_j67430986547716_2_alg».proof.Proof.WholeMasks
import proofs.«142455_j67430986547716_2_alg».proof.Proof.BoxRef
import proofs.«142455_j67430986547716_2_alg».proof.Proof.PointRef
import Idealize.ShloMosaic.Adequacy
import Idealize.ShloMosaic.Init

noncomputable section

namespace Cert.Proof

open Idealize.ShloMosaic Idealize.ShloMosaic.TcCoe Idealize.SL.Sem Cert.MaskSpec

theorem frame_kernel : Cert.frame_Kernel := fun m ρ _ => Cert.Kernel.Gen.frame m ρ

theorem frame_kernelIdeal : Cert.frame_KernelIdeal := fun m ρ _ => Cert.KernelIdeal.Gen.frame m ρ

/-- The reference's run, keeping only that the arguments end unchanged. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- No operation was rewritten between the two readings of the first program. -/
theorem preserves : Cert.preserves_Kernel_KernelIdeal := trivial

/-- From argument arrays that agree, both programs end with the box mask and the point mask of those arrays. -/
theorem algebraic : Cert.algebraic_KernelIdeal_ReferenceIdeal := by
  intro m ρ m' ρ' _ hagree
  refine ⟨fun c => boxMask (m ((c.tc : Thread Cert.KernelIdeal.nD Cert.KernelIdeal.τ).loc Cert.KernelIdeal.main_arg0)),
    fun c => pointMask (m ((c.tc : Thread Cert.KernelIdeal.nD Cert.KernelIdeal.τ).loc Cert.KernelIdeal.main_arg1)),
    Cert.KernelIdeal.WholeMasks.run m ρ, ?_⟩
  refine (θ_run Cert.ReferenceIdeal.defs _ _).mono (fun r h c => ⟨?_, ?_, (h c).2.2.1, (h c).2.2.2⟩)
    (Cert.ReferenceIdeal.Value.run (F := Ideal) m' ρ')
  · rw [(h c).1, Cert.ReferenceIdeal.Read.val_main_v68_eq, (hagree c).1]
    funext i
    exact Cert.ReferenceIdeal.BoxRef.box_apply _ i
  · rw [(h c).2.1, Cert.ReferenceIdeal.Read.val_main_v114_eq, (hagree c).2]
    funext j
    exact Cert.ReferenceIdeal.PointRef.point_apply _ j

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
